-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S2x100000x60x3 : S_.BroadcastsInDim S2x100000x60x3 (![] : Fin 0 → Fin S2x100000x60x3.rank)
  reducesTo_S2x100000x60x3_S_d0_1_2_3 : S2x100000x60x3.ReducesTo [0, 1, 2, 3] S_
  bcast_S_S2x100000x60 : S_.BroadcastsInDim S2x100000x60 (![] : Fin 0 → Fin S2x100000x60.rank)
  reducesTo_S2x100000x60_S_d0_1_2 : S2x100000x60.ReducesTo [0, 1, 2] S_

variable [Facts]

def fn_part1 {F : FTy → Type} [FloatOps F] (main_v13 : IVec S_ 1) (main_v16 : IVec S2x100000x60 1) : IVec S_ 1 :=
  let main_c_5 : IVec S_ 1 := constantI S_ 1 1#1
  let main_v17 : IVec S_ 1 := (fun x v => Host.reduce IntOp.andi x v reducesTo_S2x100000x60_S_d0_1_2 h_S_) main_v16 main_c_5
  let main_v18 : IVec S_ 1 := andi main_v13 main_v17
  main_v18

def fn {F : FTy → Type} [FloatOps F] (main_arg0 : FVec F S2x100000x3 .f32) (main_arg1 : FVec F S2x100000x60x3 .f32) (main_arg2 : FVec F S2x100000x60x3 .f32) (main_arg3 : FVec F S2x100000x60 .f32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x60x3 .f32 := Host.absf main_arg1
  let main_cst_0 : FVec F S_ .f32 := constant S_ .f32 0x7F800000#32
  let main_v5 : FVec F S2x100000x60x3 .f32 := broadcastInDim S2x100000x60x3 ![] bcast_S_S2x100000x60x3 main_cst_0
  let main_v6 : IVec S2x100000x60x3 1 := cmpf .olt main_v4 main_v5
  let main_c_1 : IVec S_ 1 := constantI S_ 1 1#1
  let main_v7 : IVec S_ 1 := (fun x v => Host.reduce IntOp.andi x v reducesTo_S2x100000x60x3_S_d0_1_2_3 h_S_) main_v6 main_c_1
  let main_v8 : IVec S_ 1 := andi main_v3 main_v7
  let main_v9 : FVec F S2x100000x60x3 .f32 := Host.absf main_arg2
  let main_cst_2 : FVec F S_ .f32 := constant S_ .f32 0x7F800000#32
  let main_v10 : FVec F S2x100000x60x3 .f32 := broadcastInDim S2x100000x60x3 ![] bcast_S_S2x100000x60x3 main_cst_2
  let main_v11 : IVec S2x100000x60x3 1 := cmpf .olt main_v9 main_v10
  let main_c_3 : IVec S_ 1 := constantI S_ 1 1#1
  let main_v12 : IVec S_ 1 := (fun x v => Host.reduce IntOp.andi x v reducesTo_S2x100000x60x3_S_d0_1_2_3 h_S_) main_v11 main_c_3
  let main_v13 : IVec S_ 1 := andi main_v8 main_v12
  let main_v14 : FVec F S2x100000x60 .f32 := Host.absf main_arg3
  let main_cst_4 : FVec F S_ .f32 := constant S_ .f32 0x7F800000#32
  let main_v15 : FVec F S2x100000x60 .f32 := broadcastInDim S2x100000x60 ![] bcast_S_S2x100000x60 main_cst_4
  let main_v16 : IVec S2x100000x60 1 := cmpf .olt main_v14 main_v15
  fn_part1 (F := F) main_v13 main_v16
-- ==== Kernel.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S2x3x100000 : Shape := ⟨3, ![2, 3, 100000]⟩
abbrev S2x3x60x100000 : Shape := ⟨4, ![2, 3, 60, 100000]⟩
abbrev S2x60x100000 : Shape := ⟨3, ![2, 60, 100000]⟩
abbrev S_ : Shape := ⟨0, ![]⟩
abbrev S2x3x100352 : Shape := ⟨3, ![2, 3, 100352]⟩
abbrev S2x3x60x100352 : Shape := ⟨4, ![2, 3, 60, 100352]⟩
abbrev S2x60x100352 : Shape := ⟨3, ![2, 60, 100352]⟩
abbrev S2x1x1 : Shape := ⟨3, ![2, 1, 1]⟩
abbrev S1x3x2048 : Shape := ⟨3, ![1, 3, 2048]⟩
abbrev S1x3x60x2048 : Shape := ⟨4, ![1, 3, 60, 2048]⟩
abbrev S1x60x2048 : Shape := ⟨3, ![1, 60, 2048]⟩
abbrev S1x1x1 : Shape := ⟨3, ![1, 1, 1]⟩
abbrev S1x1 : Shape := ⟨2, ![1, 1]⟩
abbrev S3x2048 : Shape := ⟨2, ![3, 2048]⟩
abbrev S3x60x2048 : Shape := ⟨3, ![3, 60, 2048]⟩
abbrev S60x2048 : Shape := ⟨2, ![60, 2048]⟩
abbrev S3x1x2048 : Shape := ⟨3, ![3, 1, 2048]⟩
abbrev S2048 : Shape := ⟨1, ![2048]⟩
abbrev S1x2048 : Shape := ⟨2, ![1, 2048]⟩
abbrev S1 : Shape := ⟨1, ![1]⟩
abbrev S2 : Shape := ⟨1, ![2]⟩

abbrev nBuf : Space → Nat
  | .hbm => 22
  | .vmem => 11
  | .smem => 0
  | _ => 0

abbrev bufTy : (tb : Table) → Fin (tcTables nBuf tb) → BufTy
  | .hbm, ⟨0, _⟩ => ⟨S2x100000x3, .f32⟩
  | .hbm, ⟨1, _⟩ => ⟨S2x100000x60x3, .f32⟩
  | .hbm, ⟨2, _⟩ => ⟨S2x100000x60x3, .f32⟩
  | .hbm, ⟨3, _⟩ => ⟨S2x100000x60, .f32⟩
  | .hbm, ⟨4, _⟩ => ⟨S2x3x100000, .f32⟩
  | .hbm, ⟨5, _⟩ => ⟨S2x3x60x100000, .f32⟩
  | .hbm, ⟨6, _⟩ => ⟨S2x3x60x100000, .f32⟩
  | .hbm, ⟨7, _⟩ => ⟨S2x60x100000, .f32⟩
  | .hbm, ⟨8, _⟩ => ⟨S_, .i32⟩
  | .hbm, ⟨9, _⟩ => ⟨S_, .f32⟩
  | .hbm, ⟨10, _⟩ => ⟨S2x3x100352, .f32⟩
  | .hbm, ⟨11, _⟩ => ⟨S_, .i32⟩
  | .hbm, ⟨12, _⟩ => ⟨S_, .f32⟩
  | .hbm, ⟨13, _⟩ => ⟨S2x3x60x100352, .f32⟩
  | .hbm, ⟨14, _⟩ => ⟨S_, .i32⟩
  | .hbm, ⟨15, _⟩ => ⟨S_, .f32⟩
  | .hbm, ⟨16, _⟩ => ⟨S2x3x60x100352, .f32⟩
  | .hbm, ⟨17, _⟩ => ⟨S_, .f32⟩
  | .hbm, ⟨18, _⟩ => ⟨S_, .f32⟩
  | .hbm, ⟨19, _⟩ => ⟨S2x60x100352, .f32⟩
  | .hbm, ⟨20, _⟩ => ⟨S2x1x1, .f32⟩
  | .hbm, ⟨21, _⟩ => ⟨S2, .f32⟩
  | .local _ .vmem, ⟨0, _⟩ => ⟨S1x3x2048, .f32⟩
  | .local _ .vmem, ⟨1, _⟩ => ⟨S1x3x2048, .f32⟩
  | .local _ .vmem, ⟨2, _⟩ => ⟨S1x3x60x2048, .f32⟩
  | .local _ .vmem, ⟨3, _⟩ => ⟨S1x3x60x2048, .f32⟩
  | .local _ .vmem, ⟨4, _⟩ => ⟨S1x3x60x2048, .f32⟩
  | .local _ .vmem, ⟨5, _⟩ => ⟨S1x3x60x2048, .f32⟩
  | .local _ .vmem, ⟨6, _⟩ => ⟨S1x60x2048, .f32⟩
  | .local _ .vmem, ⟨7, _⟩ => ⟨S1x60x2048, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_cst : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v48 : BitVec 1 := Scalar.cmpi .eq arg1 c48_i32
  let v49 : BitVec 32 := Scalar.extui v48
  let c0_i32_25 : BitVec 32 := 0#32
  let v50 : BitVec 1 := Scalar.cmpi .ne v49 c0_i32_25
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x60x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x60x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x60x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S2x100000x3_S2x3x100000_0_2_1 : S2x100000x3.Transposes [0, 2, 1] S2x3x100000
  transposes_S2x100000x60x3_S2x3x60x100000_0_3_2_1 : S2x100000x60x3.Transposes [0, 3, 2, 1] S2x3x60x100000
  transposes_S2x100000x60_S2x60x100000_0_2_1 : S2x100000x60.Transposes [0, 2, 1] S2x60x100000
  pads_S2x3x100000_S2x3x100352_000_000_03520 : S2x3x100000.Pads (![0, 0, 0] : Fin 3 → Nat) ![0, 0, 352] ![0, 0, 0] S2x3x100352
  h_S_ : 0 < S_.numel
  pads_S2x3x60x100000_S2x3x60x100352_000_000_000_03520 : S2x3x60x100000.Pads (![0, 0, 0, 0] : Fin 4 → Nat) ![0, 0, 0, 352] ![0, 0, 0, 0] S2x3x60x100352
  pads_S2x60x100000_S2x60x100352_000_000_03520 : S2x60x100000.Pads (![0, 0, 0] : Fin 3 → Nat) ![0, 0, 352] ![0, 0, 0] S2x60x100352
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x60x2048_S1x3x60x2048_0_0_0_0 : ∀ a, (![0, 0, 0, 0] : Fin 4 → Nat) a + S1x3x60x2048.size a ≤ S1x3x60x2048.size a
  h_S1x3x60x2048 : 0 < S1x3x60x2048.numel
  shapeCasts_S1x3x60x2048_S3x60x2048 : S1x3x60x2048.ShapeCasts S3x60x2048
  inb_S1x60x2048_S1x60x2048_0_0_0 : ∀ a, (![0, 0, 0] : Fin 3 → Nat) a + S1x60x2048.size a ≤ S1x60x2048.size a
  h_S1x60x2048 : 0 < S1x60x2048.numel
  shapeCasts_S1x60x2048_S60x2048 : S1x60x2048.ShapeCasts S60x2048
  shapeCasts_S3x2048_S3x1x2048 : S3x2048.ShapeCasts S3x1x2048
  broadcasts_S3x1x2048_S3x60x2048 : S3x1x2048.Broadcasts S3x60x2048
  reduces_S3x60x2048_S60x2048 : S3x60x2048.Reduces [0] S60x2048
  reduces_S60x2048_S2048 : S60x2048.Reduces [0] S2048
  shapeCasts_S2048_S1x2048 : S2048.ShapeCasts S1x2048
  iota_S1x2048_d1_w32 : S1x2048.Iotas .tc 32 [1]
  reduces_S1x2048_S1 : S1x2048.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x1_S2 : S2x1x1.ShapeCasts S2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S2x3x100352.size a
  hwx0_0 : ∀ i : grid0.Coords, EltTy.bits .f32 = 32 ∨ (Rect.block (s := S2x3x100352) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x60x2048.size a ≤ S2x3x60x100352.size a
  hwx0_1 : ∀ i : grid0.Coords, EltTy.bits .f32 = 32 ∨ (Rect.block (s := S2x3x60x100352) S1x3x60x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x60x2048.size a ≤ S2x3x60x100352.size a
  hwx0_2 : ∀ i : grid0.Coords, EltTy.bits .f32 = 32 ∨ (Rect.block (s := S2x3x60x100352) S1x3x60x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x60x2048.size a ≤ S2x60x100352.size a
  hwx0_3 : ∀ i : grid0.Coords, EltTy.bits .f32 = 32 ∨ (Rect.block (s := S2x60x100352) S1x60x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_v4) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x3x60x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3x60x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x60x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S2x100000x1x3 : Shape := ⟨4, ![2, 100000, 1, 3]⟩
abbrev S_ : Shape := ⟨0, ![]⟩
abbrev S2x100000 : Shape := ⟨2, ![2, 100000]⟩
abbrev S2 : Shape := ⟨1, ![2]⟩

abbrev nBuf : Space → Nat
  | .hbm => 34
  | .vmem => 0
  | .smem => 0
  | _ => 0

abbrev bufTy : (tb : Table) → Fin (tcTables nBuf tb) → BufTy
  | .hbm, ⟨0, _⟩ => ⟨S2x100000x3, .f32⟩
  | .hbm, ⟨1, _⟩ => ⟨S2x100000x60x3, .f32⟩
  | .hbm, ⟨2, _⟩ => ⟨S2x100000x60x3, .f32⟩
  | .hbm, ⟨3, _⟩ => ⟨S2x100000x60, .f32⟩
  | .hbm, ⟨4, _⟩ => ⟨S2x100000x1x3, .f32⟩
  | .hbm, ⟨5, _⟩ => ⟨S2x100000x60x3, .f32⟩
  | .hbm, ⟨6, _⟩ => ⟨S2x100000x60x3, .f32⟩
  | .hbm, ⟨7, _⟩ => ⟨S2x100000x60x3, .f32⟩
  | .hbm, ⟨8, _⟩ => ⟨S_, .f32⟩
  | .hbm, ⟨9, _⟩ => ⟨S2x100000x60, .f32⟩
  | .hbm, ⟨10, _⟩ => ⟨S2x100000x60, .i1⟩
  | .hbm, ⟨11, _⟩ => ⟨S2x100000x60, .f32⟩
  | .hbm, ⟨12, _⟩ => ⟨S_, .f32⟩
  | .hbm, ⟨13, _⟩ => ⟨S2x100000x60, .f32⟩
  | .hbm, ⟨14, _⟩ => ⟨S2x100000x60, .f32⟩
  | .hbm, ⟨15, _⟩ => ⟨S2x100000x60, .f32⟩
  | .hbm, ⟨16, _⟩ => ⟨S2x100000x60, .f32⟩
  | .hbm, ⟨17, _⟩ => ⟨S2x100000x60, .f32⟩
  | .hbm, ⟨18, _⟩ => ⟨S_, .f32⟩
  | .hbm, ⟨19, _⟩ => ⟨S_, .f32⟩
  | .hbm, ⟨20, _⟩ => ⟨S2x100000x60, .f32⟩
  | .hbm, ⟨21, _⟩ => ⟨S2x100000x60, .f32⟩
  | .hbm, ⟨22, _⟩ => ⟨S2x100000x60x3, .f32⟩
  | .hbm, ⟨23, _⟩ => ⟨S_, .f32⟩
  | .hbm, ⟨24, _⟩ => ⟨S2x100000x60, .f32⟩
  | .hbm, ⟨25, _⟩ => ⟨S2x100000x60, .f32⟩
  | .hbm, ⟨26, _⟩ => ⟨S_, .f32⟩
  | .hbm, ⟨27, _⟩ => ⟨S2x100000, .f32⟩
  | .hbm, ⟨28, _⟩ => ⟨S_, .f32⟩
  | .hbm, ⟨29, _⟩ => ⟨S2x100000, .f32⟩
  | .hbm, ⟨30, _⟩ => ⟨S2x100000, .f32⟩
  | .hbm, ⟨31, _⟩ => ⟨S2x100000, .f32⟩
  | .hbm, ⟨32, _⟩ => ⟨S_, .f32⟩
  | .hbm, ⟨33, _⟩ => ⟨S2, .f32⟩
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2x100000x3_S2x100000x1x3_0_1_3 : S2x100000x3.BroadcastsInDim S2x100000x1x3 (![0, 1, 3] : Fin 3 → Fin S2x100000x1x3.rank)
  bcast_S2x100000x1x3_S2x100000x60x3_0_1_2_3 : S2x100000x1x3.BroadcastsInDim S2x100000x60x3 (![0, 1, 2, 3] : Fin 4 → Fin S2x100000x60x3.rank)
  reducesTo_S2x100000x60x3_S2x100000x60_d3 : S2x100000x60x3.ReducesTo [3] S2x100000x60
  h_S_ : 0 < S_.numel
  bcast_S_S2x100000x60 : S_.BroadcastsInDim S2x100000x60 (![] : Fin 0 → Fin S2x100000x60.rank)
  reducesTo_S2x100000x60_S2x100000_d2 : S2x100000x60.ReducesTo [2] S2x100000
  reducesTo_S2x100000_S2_d1 : S2x100000.ReducesTo [1] S2

variable [Facts₀]

class Facts : Prop extends Facts₀ where

variable [Facts]
-- ==== Proof.SdfSpec.lean ====
/-
  The quantity both programs compute, as one function of the four argument arrays over the extended reals.

  For a batch `n`, a point `p` and one of its 60 neighbours `k`: the offset from the neighbour's vertex to the
  point, channel by channel; its squared length `d`; the neighbour's weight — the quartic `(1 - d / r)^4` written
  as `(w·w)·(w·w)` when `d` is below the squared support radius `r`, the small constant 1e-18 otherwise —; and the
  offset's inner product with the neighbour's normal. A point's signed distance is the weighted mean of those inner
  products, weights summed over the neighbours; the result for a batch is the sum over its 100000 points of the
  squared signed distance. Every sum is a finite sum of extended reals, the quotients are `Ideal.div`, and the
  float words (1.0 and 1e-18) are kept as words: both programs use the same ones.
-/
import Idealize.ShloMosaic.PureOps.Ideal
import Idealize.ShloMosaic.Lib.ValueIdx

noncomputable section

namespace Cert.SdfSpec

open Idealize.ShloMosaic Idealize.ShloMosaic.ValueIdx

/-- The points: batch, point, channel. -/
abbrev Pts := (⟨3, ![2, 100000, 3]⟩ : Shape).Idx → EReal
/-- A per-neighbour vector field (the vertices, the normals): batch, point, neighbour, channel. -/
abbrev Nbr := (⟨4, ![2, 100000, 60, 3]⟩ : Shape).Idx → EReal
/-- The squared support radii: batch, point, neighbour. -/
abbrev Rad := (⟨3, ![2, 100000, 60]⟩ : Shape).Idx → EReal

/-- The neighbour's weight from the squared distance `d` and the squared support radius `r`: `(1 - d/r)^4` inside
    the support, 1e-18 outside. -/
def weightOf (d r : EReal) : EReal :=
  Scalar.select (FloatOps.cmpf (F := Ideal) (φ := .f32) .olt d r)
    (((Ideal.ofBits .f32 0x3F800000#32 - Ideal.div d r) * (Ideal.ofBits .f32 0x3F800000#32 - Ideal.div d r))
      * ((Ideal.ofBits .f32 0x3F800000#32 - Ideal.div d r) * (Ideal.ofBits .f32 0x3F800000#32 - Ideal.div d r)))
    (Ideal.ofBits .f32 0x219392EF#32)

variable (P : Pts) (Vv Vn : Nbr) (Sr : Rad)

/-- Channel `c` of the offset from neighbour `k`'s vertex to point `p`. -/
def off (n : Fin 2) (p : Fin 100000) (k : Fin 60) (c : Fin 3) : EReal :=
  P (ix3 n p c) - Vv (ix4 n p k c)

/-- The squared distance from point `p` to its neighbour `k`. -/
def dist (n : Fin 2) (p : Fin 100000) (k : Fin 60) : EReal :=
  ∑ c : Fin 3, off P Vv n p k c * off P Vv n p k c

/-- Neighbour `k`'s weight at point `p`. -/
def weight (n : Fin 2) (p : Fin 100000) (k : Fin 60) : EReal :=
  weightOf (dist P Vv n p k) (Sr (ix3 n p k))

/-- The offset's inner product with the neighbour's normal. -/
def proj (n : Fin 2) (p : Fin 100000) (k : Fin 60) : EReal :=
  ∑ c : Fin 3, Vn (ix4 n p k c) * off P Vv n p k c

/-- The signed distance at point `p`: the weighted mean of the inner products over the 60 neighbours. -/
def sdf (n : Fin 2) (p : Fin 100000) : EReal :=
  Ideal.div (∑ k : Fin 60, weight P Vv Sr n p k * proj P Vv Vn n p k) (∑ k : Fin 60, weight P Vv Sr n p k)

/-- The squared signed distance at position `q` of the point axis, and zero past the last point: the form in which
    a sum over blocks of positions, the last block overhanging the axis, meets the sum over the points. -/
def sqAt (n : Fin 2) (q : ℕ) : EReal :=
  if h : q < 100000 then sdf P Vv Vn Sr n ⟨q, h⟩ * sdf P Vv Vn Sr n ⟨q, h⟩ else 0

/-- The result for batch `n`: the sum over the points of the squared signed distance. -/
def total (n : Fin 2) : EReal :=
  ∑ p : Fin 100000, sdf P Vv Vn Sr n p * sdf P Vv Vn Sr n p

/-- The result array: one number per batch. -/
def G : (⟨1, ![2]⟩ : Shape).Idx → EReal := fun i => total P Vv Vn Sr (i 0)

theorem total_eq_sum_sqAt (n : Fin 2) : total P Vv Vn Sr n = ∑ p : Fin 100000, sqAt P Vv Vn Sr n p.val := by
  unfold total sqAt
  exact Finset.sum_congr rfl fun p _ => by rw [dif_pos p.isLt]

end Cert.SdfSpec

end
-- ==== Proof.RefIsSpec.lean ====
/-
  The reference's result, read index by index, is the specification.

  The reference program computes its result one array operation at a time. Reading each operation at an index — a
  pointwise operation at the same index of its operands, a broadcast at the index with the new axis dropped, a sum along
  an axis as the finite sum over that axis's coordinate — and following the operations from the last one back to the
  arguments gives, level by level, the quantities of the specification: the offset from a neighbour's vertex to the
  point, its squared length, the neighbour's weight, the offset's inner product with the neighbour's normal, the signed
  distance as the weighted mean of those inner products, and for each batch the sum over the points of the squared
  signed distance. Each sum starts from the zero word, which is the number zero; the words 1.0 and 1e-18 and the
  comparison are kept as they are, the specification being written with the same ones.
-/
import proofs.«141588_j75806172774865_2_alg».proof.Proof.Gen.ReferenceIdeal.Read
import proofs.«141588_j75806172774865_2_alg».proof.Proof.SdfSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.SdfSpec
open Idealize.ShloMosaic Idealize.ShloMosaic.ValueIdx

variable (x0 : Pts) (x1 x2 : Nbr) (x3 : Rad)

/-! ## The index functions of the layout operations and of the sums, at an index given by its coordinates -/

/-- Broadcasting the points along the neighbour axis reads the point array with the neighbour coordinate dropped. -/
theorem idx_pts (n : Fin 2) (p : Fin 100000) (k : Fin 60) (c : Fin 3) :
    idx_main_v0 (idx_main_v1 (ix4 n p k c)) = ix3 n p c :=
  funext fun a => Fin.ext (by match a with | ⟨0, _⟩ => rfl | ⟨1, _⟩ => rfl | ⟨2, _⟩ => rfl)

/-- The sum over the channels that gives the squared distance reads its operand at the channel coordinate. -/
theorem idx_v4 (n : Fin 2) (p : Fin 100000) (k : Fin 60) (c : Fin 3) :
    idx_main_v4 (ix3 n p k) c = ix4 n p k c :=
  funext fun a => Fin.ext (by match a with | ⟨0, _⟩ => rfl | ⟨1, _⟩ => rfl | ⟨2, _⟩ => rfl | ⟨3, _⟩ => rfl)

/-- The sum over the channels that gives the inner product reads its operand at the channel coordinate. -/
theorem idx_v14 (n : Fin 2) (p : Fin 100000) (k : Fin 60) (c : Fin 3) :
    idx_main_v14 (ix3 n p k) c = ix4 n p k c :=
  funext fun a => Fin.ext (by match a with | ⟨0, _⟩ => rfl | ⟨1, _⟩ => rfl | ⟨2, _⟩ => rfl | ⟨3, _⟩ => rfl)

/-- The sum over the neighbours of the weighted inner products reads its operand at the neighbour coordinate. -/
theorem idx_v16 (n : Fin 2) (p : Fin 100000) (k : Fin 60) :
    idx_main_v16 (ix2 n p) k = ix3 n p k :=
  funext fun a => Fin.ext (by match a with | ⟨0, _⟩ => rfl | ⟨1, _⟩ => rfl | ⟨2, _⟩ => rfl)

/-- The sum over the neighbours of the weights reads its operand at the neighbour coordinate. -/
theorem idx_v17 (n : Fin 2) (p : Fin 100000) (k : Fin 60) :
    idx_main_v17 (ix2 n p) k = ix3 n p k :=
  funext fun a => Fin.ext (by match a with | ⟨0, _⟩ => rfl | ⟨1, _⟩ => rfl | ⟨2, _⟩ => rfl)

/-- The sum over the points reads its operand at the point coordinate. -/
theorem idx_v20 (n : Fin 2) (p : Fin 100000) :
    idx_main_v20 (ix1 n) p = ix2 n p :=
  funext fun a => Fin.ext (by match a with | ⟨0, _⟩ => rfl | ⟨1, _⟩ => rfl)

/-! ## The levels of the specification -/

/-- The difference of the broadcast points and the vertices is the offset. -/
theorem v2_at (n : Fin 2) (p : Fin 100000) (k : Fin 60) (c : Fin 3) :
    val_main_v2 (F := Ideal) x0 x1 (ix4 n p k c) = off x0 x1 n p k c := by
  rw [val_main_v2_apply, val_main_v1_apply, val_main_v0_apply, idx_pts, Ideal.subf_def]
  rfl

/-- The sum over the channels of the squared offset is the squared distance. -/
theorem v4_at (n : Fin 2) (p : Fin 100000) (k : Fin 60) :
    val_main_v4 (F := Ideal) x0 x1 (ix3 n p k) = SdfSpec.dist x0 x1 n p k := by
  rw [val_main_v4_apply, val_main_cst_apply, Ideal.ofBits_def, Ideal.ofBits_zero_f32, zero_add]
  unfold SdfSpec.dist
  refine Finset.sum_congr rfl fun c _ => ?_
  rw [idx_v4, val_main_v3_apply, Ideal.mulf_def, v2_at]

/-- One minus the quotient of the squared distance by the squared support radius. -/
theorem v8_at (n : Fin 2) (p : Fin 100000) (k : Fin 60) :
    val_main_v8 (F := Ideal) x0 x1 x3 (ix3 n p k)
      = Ideal.ofBits .f32 0x3F800000#32 - Ideal.div (SdfSpec.dist x0 x1 n p k) (x3 (ix3 n p k)) := by
  rw [val_main_v8_apply, val_main_v7_apply, val_main_cst_0_apply, val_main_v6_apply, v4_at, Ideal.subf_def,
    Ideal.hostDivf_def, Ideal.ofBits_def]

/-- The selected value — the quartic inside the support, the small constant outside — is the neighbour's weight. -/
theorem v12_at (n : Fin 2) (p : Fin 100000) (k : Fin 60) :
    val_main_v12 (F := Ideal) x0 x1 x3 (ix3 n p k) = weight x0 x1 x3 n p k := by
  rw [val_main_v12_apply, val_main_v5_apply, val_main_v11_apply, val_main_v9_apply, val_main_v10_apply, v8_at, v4_at,
    val_main_call0_v1_apply, val_main_call0_v0_apply, val_main_cst_1_apply, Ideal.ofBits_def]
  simp only [Ideal.mulf_def]
  rfl

/-- The sum over the channels of the normal times the offset is the inner product. -/
theorem v14_at (n : Fin 2) (p : Fin 100000) (k : Fin 60) :
    val_main_v14 (F := Ideal) x0 x1 x2 (ix3 n p k) = proj x0 x1 x2 n p k := by
  rw [val_main_v14_apply, val_main_cst_2_apply, Ideal.ofBits_def, Ideal.ofBits_zero_f32, zero_add]
  unfold proj
  refine Finset.sum_congr rfl fun c _ => ?_
  rw [idx_v14, val_main_v13_apply, Ideal.mulf_def, v2_at]

/-- The quotient of the two sums over the neighbours is the signed distance. -/
theorem v18_at (n : Fin 2) (p : Fin 100000) :
    val_main_v18 (F := Ideal) x0 x1 x2 x3 (ix2 n p) = sdf x0 x1 x2 x3 n p := by
  rw [val_main_v18_apply, val_main_v16_apply, val_main_v17_apply, val_main_cst_3_apply, val_main_cst_4_apply,
    Ideal.ofBits_def, Ideal.ofBits_zero_f32, zero_add, zero_add, Ideal.hostDivf_def]
  unfold sdf
  refine congrArg₂ Ideal.div (Finset.sum_congr rfl fun k _ => ?_) (Finset.sum_congr rfl fun k _ => ?_)
  · rw [idx_v16, val_main_v15_apply, Ideal.mulf_def, v12_at, v14_at]
  · rw [idx_v17, v12_at]

/-- The sum over the points of the squared quotient is the batch's result. -/
theorem v20_at (n : Fin 2) :
    val_main_v20 (F := Ideal) x0 x1 x2 x3 (ix1 n) = total x0 x1 x2 x3 n := by
  rw [val_main_v20_apply, val_main_cst_5_apply, Ideal.ofBits_def, Ideal.ofBits_zero_f32, zero_add]
  unfold total
  refine Finset.sum_congr rfl fun p _ => ?_
  rw [idx_v20, val_main_v19_apply, Ideal.mulf_def, v18_at]

/-- The reference's result is the specification: for each batch, the sum over the points of the squared signed
    distance. -/
theorem ref_is_spec (x0 : Cert.SdfSpec.Pts) (x1 x2 : Cert.SdfSpec.Nbr) (x3 : Cert.SdfSpec.Rad) :
    Cert.ReferenceIdeal.Read.val_main_v20 (F := Ideal) x0 x1 x2 x3 = Cert.SdfSpec.G x0 x1 x2 x3 := by
  funext i
  obtain ⟨n, rfl⟩ : ∃ n : Fin 2, i = ix1 n := ⟨i 0, eq_ix1 i⟩
  exact v20_at x0 x1 x2 x3 n

end Cert.ReferenceIdeal.RefValue

end
-- ==== Proof.LibUnitAxisLayout.lean ====
/-
  Layout operations around a unit axis, read at an index given by its coordinates, for any element type
  and any extents: a column [a, 1] broadcast along its rows to [a, b]; an [a, b] array cast to
  [a, b, 1] and an [a, c] array cast to [a, 1, c] (a trailing, a middle unit axis added); and those
  two shapes broadcast to [a, b, c]. Each only forgets or repeats a coordinate, so the result at
  (p, r, q) is the operand at the coordinates that remain, 0 on the unit axis. Together they read a
  batched outer product  x[:, :, None] * y[:, None, :]  entry by entry.
-/
import Idealize.ShloMosaic.Lib.ValueIdx
import Idealize.ShloMosaic.Lib.Pipeline.Value
import Idealize.ShloMosaic.Lib.ValueLayout

noncomputable section

namespace Cert.Lib.UnitAxisLayout

open Idealize.ShloMosaic Idealize.ShloMosaic.ValueIdx

/-! ## The layout operations of the body, each read at an index given by coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(p, r, q)`, the operand at `(p, r, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, 1, c]` array broadcast to `[a, b, c]` reads, at `(p, r, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

end Cert.Lib.UnitAxisLayout

end
-- ==== Proof.LibSignedWords.lean ====
/-
  Signed comparisons of 32-bit words that hold small numbers.

  A kernel or a reference that masks by position compares words built from `iota`s and tile offsets: numbers far below
  2³¹. On such words the signed orders are the orders of the numbers held, so a mask bit is a comparison of naturals.
  Stated for any two words below 2³¹, whatever expressions they are; the caller shows the bound and the value of each
  word (`BitVec.toNat_add`, `BitVec.toNat_mul`, `BitVec.toNat_ofNat`, then `omega`).
-/
import Idealize.ShloMosaic.PureOps.Ideal

namespace Cert.Lib.SignedWords

open Idealize.ShloMosaic

/-- A 32-bit word below 2³¹ read as a signed integer is the number it holds. -/
theorem toInt_of_small (u : BitVec 32) (h : u.toNat < 2 ^ 31) : u.toInt = (u.toNat : Int) := by
  rw [BitVec.toInt_eq_toNat_cond]
  rw [if_pos (by omega)]

/-- `cmpi sgt u v` on two words below 2³¹ is 1 exactly when the number in `v` is below the number in `u`. -/
theorem sgt_words (u v : BitVec 32) (hu : u.toNat < 2 ^ 31) (hv : v.toNat < 2 ^ 31) :
    IntOp.cmpi .sgt u v = if v.toNat < u.toNat then 1#1 else 0#1 := by
  show BitVec.ofBool (v.slt u) = _
  rw [BitVec.slt_eq_decide, toInt_of_small u hu, toInt_of_small v hv]
  by_cases h : v.toNat < u.toNat
  · rw [if_pos h, decide_eq_true (by exact_mod_cast h)]; rfl
  · rw [if_neg h, decide_eq_false (by exact_mod_cast h)]; rfl

/-- `cmpi sge u v` on two words below 2³¹ is 1 exactly when the number in `v` is at most the number in `u`. -/
theorem sge_words (u v : BitVec 32) (hu : u.toNat < 2 ^ 31) (hv : v.toNat < 2 ^ 31) :
    IntOp.cmpi .sge u v = if v.toNat ≤ u.toNat then 1#1 else 0#1 := by
  show BitVec.ofBool (v.sle u) = _
  rw [BitVec.sle_eq_decide, toInt_of_small u hu, toInt_of_small v hv]
  by_cases h : v.toNat ≤ u.toNat
  · rw [if_pos h, decide_eq_true (by exact_mod_cast h)]; rfl
  · rw [if_neg h, decide_eq_false (by exact_mod_cast h)]; rfl

/-- `cmpi slt u v` on two words below 2³¹ is 1 exactly when the number in `u` is below the number in `v`. -/
theorem slt_words (u v : BitVec 32) (hu : u.toNat < 2 ^ 31) (hv : v.toNat < 2 ^ 31) :
    IntOp.cmpi .slt u v = if u.toNat < v.toNat then 1#1 else 0#1 := by
  show BitVec.ofBool (u.slt v) = _
  rw [BitVec.slt_eq_decide, toInt_of_small u hu, toInt_of_small v hv]
  by_cases h : u.toNat < v.toNat
  · rw [if_pos h, decide_eq_true (by exact_mod_cast h)]; rfl
  · rw [if_neg h, decide_eq_false (by exact_mod_cast h)]; rfl

/-- `cmpi sle u v` on two words below 2³¹ is 1 exactly when the number in `u` is at most the number in `v`. -/
theorem sle_words (u v : BitVec 32) (hu : u.toNat < 2 ^ 31) (hv : v.toNat < 2 ^ 31) :
    IntOp.cmpi .sle u v = if u.toNat ≤ v.toNat then 1#1 else 0#1 := by
  show BitVec.ofBool (u.sle v) = _
  rw [BitVec.sle_eq_decide, toInt_of_small u hu, toInt_of_small v hv]
  by_cases h : u.toNat ≤ v.toNat
  · rw [if_pos h, decide_eq_true (by exact_mod_cast h)]; rfl
  · rw [if_neg h, decide_eq_false (by exact_mod_cast h)]; rfl

end Cert.Lib.SignedWords
-- ==== Proof.LaneValue.lean ====
/-
  What one grid point's body computes, read entry by entry over the extended reals.

  The body holds a block of 2048 consecutive positions of the point axis, with the positions on the last (lane)
  axis: the points' channels as [1, 3, 2048], the neighbours' vertices and normals as [1, 3, 60, 2048], the squared
  radii as [1, 60, 2048]. For a lane `l` it forms the offsets to the 60 neighbours channel by channel, their squared
  lengths (a sum over the 3 channels), the weights, the inner products with the normals (again over the channels),
  and the quotient of the two sums over the 60 neighbours: the signed distance of the position in lane `l`. It then
  zeroes the lanes whose position is past the last point, squares, sums over the 2048 lanes and adds the sum to the
  running total it carries from the block before.
-/
import proofs.«141588_j75806172774865_2_alg».proof.Proof.Gen.KernelIdeal.Skeleton
import proofs.«141588_j75806172774865_2_alg».proof.Proof.SdfSpec
import proofs.«141588_j75806172774865_2_alg».proof.Proof.LibUnitAxisLayout
import proofs.«141588_j75806172774865_2_alg».proof.Proof.LibSignedWords
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LaneValue

open Idealize.ShloMosaic Idealize.ShloMosaic.ValueIdx Cert.KernelIdeal Cert.KernelIdeal.Gen Cert.SdfSpec
open Cert.Lib.UnitAxisLayout

/-! ## The three sums of the body, each over one axis, in coordinates -/

/-- The sum over the leading (channel) axis of a [3, 60, 2048] vector, at neighbour `k` and lane `l`. -/
theorem sum_channels (v : FVec Ideal S3x60x2048 .f32) (h : S3x60x2048.Reduces [0] S60x2048) (hacc : (0x00000000#32 : BitVec 32) = 0x00000000#32) (k : Fin 60) (l : Fin 2048) :
    multiReduction .add [0] S60x2048 v 0x00000000#32 h (.inl rfl) hacc (ix2 k l) = ∑ c : Fin 3, v (ix3 c k l) :=
  (Ideal.multiReduction_add_single v _ h (.inl rfl) hacc (ix2 k l)).trans
    (Finset.sum_congr rfl fun c _ => congrArg v (funext fun a => Fin.ext (by
      match a with | ⟨0, _⟩ => rfl | ⟨1, _⟩ => rfl | ⟨2, _⟩ => rfl)))

/-- The sum over the leading (neighbour) axis of a [60, 2048] vector, at lane `l`. -/
theorem sum_neighbours (v : FVec Ideal S60x2048 .f32) (h : S60x2048.Reduces [0] S2048) (hacc : (0x00000000#32 : BitVec 32) = 0x00000000#32) (l : Fin 2048) :
    multiReduction .add [0] S2048 v 0x00000000#32 h (.inl rfl) hacc (ix1 l) = ∑ k : Fin 60, v (ix2 k l) :=
  (Ideal.multiReduction_add_single v _ h (.inl rfl) hacc (ix1 l)).trans
    (Finset.sum_congr rfl fun k _ => congrArg v (funext fun a => Fin.ext (by
      match a with | ⟨0, _⟩ => rfl | ⟨1, _⟩ => rfl)))

/-- The sum over the lanes of a [1, 2048] vector. -/
theorem sum_lanes (v : FVec Ideal S1x2048 .f32) (h : S1x2048.Reduces [1] S1) (hacc : (0x00000000#32 : BitVec 32) = 0x00000000#32) (u : Fin 1) :
    multiReduction .add [1] S1 v 0x00000000#32 h (.inl rfl) hacc (ix1 u) = ∑ l : Fin 2048, v (ix2 u l) :=
  (Ideal.multiReduction_add_single v _ h (.inl rfl) hacc (ix1 u)).trans
    (Finset.sum_congr rfl fun l _ => congrArg v (funext fun a => Fin.ext (by
      match a with | ⟨0, _⟩ => rfl | ⟨1, _⟩ => rfl)))

/-! ## The body's vectors, named, each read at an entry -/

variable (x0 : FVec Ideal S1x3x2048 .f32) (x1 x2 : FVec Ideal S1x3x60x2048 .f32) (x3 : FVec Ideal S1x60x2048 .f32)

/-- The offset, channel `c`, from neighbour `k`'s vertex to the position in lane `l`, from the block's entries. -/
def laneOff (c : Fin 3) (k : Fin 60) (l : Fin 2048) : EReal :=
  x0 (ix3 (0 : Fin 1) c l) - x1 (ix4 (0 : Fin 1) c k l)

/-- The squared distance to neighbour `k` at lane `l`. -/
def laneDist (k : Fin 60) (l : Fin 2048) : EReal := ∑ c : Fin 3, laneOff x0 x1 c k l * laneOff x0 x1 c k l

/-- Neighbour `k`'s weight at lane `l`. -/
def laneWeight (k : Fin 60) (l : Fin 2048) : EReal := weightOf (laneDist x0 x1 k l) (x3 (ix3 (0 : Fin 1) k l))

/-- The offset's inner product with neighbour `k`'s normal at lane `l`. -/
def laneProj (k : Fin 60) (l : Fin 2048) : EReal := ∑ c : Fin 3, x2 (ix4 (0 : Fin 1) c k l) * laneOff x0 x1 c k l

/-- The signed distance of the position in lane `l`, from the block's entries. -/
def laneSdf (l : Fin 2048) : EReal :=
  Ideal.div (∑ k : Fin 60, laneWeight x0 x1 x3 k l * laneProj x0 x1 x2 k l) (∑ k : Fin 60, laneWeight x0 x1 x3 k l)

/-- The offsets as the body forms them: the points' block, a neighbour axis inserted and repeated 60 times, minus the
    vertices' block. -/
def offV : FVec Ideal S3x60x2048 .f32 :=
  subf (broadcastTo S3x60x2048 (shapeCast S3x1x2048 (shapeCast S3x2048 x0 shapeCasts_S1x3x2048_S3x2048)
    shapeCasts_S3x2048_S3x1x2048) broadcasts_S3x1x2048_S3x60x2048) (shapeCast S3x60x2048 x1 shapeCasts_S1x3x60x2048_S3x60x2048)

theorem offV_apply (c : Fin 3) (k : Fin 60) (l : Fin 2048) : offV x0 x1 (ix3 c k l) = laneOff x0 x1 c k l := by
  unfold offV laneOff
  rw [subf_apply, broadcastTo_a1c_abc_apply, shapeCast_ac_a1c_apply, shapeCast_1ab_ab_apply, shapeCast_1abc_abc_apply]

/-- The squared distances as the body forms them. -/
def distV : FVec Ideal S60x2048 .f32 :=
  multiReduction .add [0] S60x2048 (mulf (offV x0 x1) (offV x0 x1)) 0x00000000#32 reduces_S3x60x2048_S60x2048 (.inl rfl) rfl

theorem distV_apply (k : Fin 60) (l : Fin 2048) : distV x0 x1 (ix2 k l) = laneDist x0 x1 k l := by
  unfold distV laneDist
  rw [sum_channels]
  exact Finset.sum_congr rfl fun c _ => by rw [mulf_apply, offV_apply]

/-- One minus the squared distance over the squared radius. -/
def ratioV : FVec Ideal S60x2048 .f32 :=
  subf (broadcast S60x2048 (Scalar.ofBits .f32 0x3F800000#32))
    (divf (distV x0 x1) (shapeCast S60x2048 x3 shapeCasts_S1x60x2048_S60x2048))

/-- The weights as the body forms them. -/
def weightV : FVec Ideal S60x2048 .f32 :=
  select (cmpf .olt (distV x0 x1) (shapeCast S60x2048 x3 shapeCasts_S1x60x2048_S60x2048))
    (mulf (mulf (ratioV x0 x1 x3) (ratioV x0 x1 x3)) (mulf (ratioV x0 x1 x3) (ratioV x0 x1 x3)))
    (broadcast S60x2048 (Scalar.ofBits .f32 0x219392EF#32))

theorem weightV_apply (k : Fin 60) (l : Fin 2048) : weightV x0 x1 x3 (ix2 k l) = laneWeight x0 x1 x3 k l := by
  unfold weightV ratioV laneWeight weightOf
  rw [select_apply, cmpf_apply, mulf_apply, mulf_apply, subf_apply, divf_apply, broadcast_apply, broadcast_apply,
    distV_apply, shapeCast_1ab_ab_apply]
  rfl

/-- The inner products with the normals as the body forms them. -/
def projV : FVec Ideal S60x2048 .f32 :=
  multiReduction .add [0] S60x2048 (mulf (shapeCast S3x60x2048 x2 shapeCasts_S1x3x60x2048_S3x60x2048) (offV x0 x1))
    0x00000000#32 reduces_S3x60x2048_S60x2048 (.inl rfl) rfl

theorem projV_apply (k : Fin 60) (l : Fin 2048) : projV x0 x1 x2 (ix2 k l) = laneProj x0 x1 x2 k l := by
  unfold projV laneProj
  rw [sum_channels]
  exact Finset.sum_congr rfl fun c _ => by rw [mulf_apply, offV_apply, shapeCast_1abc_abc_apply]

/-- The body's quotient vector in terms of the named vectors. -/
theorem pay_sdf_eq : k0_pay4 (F := Ideal) x0 x1 x2 x3
    = divf (shapeCast S1x2048 (multiReduction .add [0] S2048 (mulf (weightV x0 x1 x3) (projV x0 x1 x2)) 0x00000000#32
        reduces_S60x2048_S2048 (.inl rfl) rfl) shapeCasts_S2048_S1x2048)
      (shapeCast S1x2048 (multiReduction .add [0] S2048 (weightV x0 x1 x3) 0x00000000#32
        reduces_S60x2048_S2048 (.inl rfl) rfl) shapeCasts_S2048_S1x2048) := rfl

/-- The body's quotient vector at lane `l` is the signed distance of the position in that lane. -/
theorem pay_sdf_apply (l : Fin 2048) :
    k0_pay4 (F := Ideal) x0 x1 x2 x3 (ix2 (0 : Fin 1) l) = laneSdf x0 x1 x2 x3 l := by
  rw [pay_sdf_eq]
  unfold laneSdf
  rw [divf_apply, shapeCast_a_1a_apply, shapeCast_a_1a_apply, sum_neighbours, sum_neighbours]
  refine congrArg₂ Ideal.div (Finset.sum_congr rfl fun k _ => ?_) (Finset.sum_congr rfl fun k _ => ?_)
  · rw [mulf_apply, weightV_apply, projV_apply]
  · rw [weightV_apply]

/-! ## A block whose entries are the arrays' entries computes the specification's signed distances -/

/-- If lane `l` of the four blocks holds the entries of point `q` of batch `n`, the lane's signed distance is the
    specification's at that point. -/
theorem laneSdf_eq_sdf (P : Pts) (Vv Vn : Nbr) (Sr : Rad) (n : Fin 2) (q : Fin 100000) (l : Fin 2048)
    (h0 : ∀ ch : Fin 3, x0 (ix3 (0 : Fin 1) ch l) = P (ix3 n q ch))
    (h1 : ∀ (ch : Fin 3) (k : Fin 60), x1 (ix4 (0 : Fin 1) ch k l) = Vv (ix4 n q k ch))
    (h2 : ∀ (ch : Fin 3) (k : Fin 60), x2 (ix4 (0 : Fin 1) ch k l) = Vn (ix4 n q k ch))
    (h3 : ∀ k : Fin 60, x3 (ix3 (0 : Fin 1) k l) = Sr (ix3 n q k)) :
    laneSdf x0 x1 x2 x3 l = sdf P Vv Vn Sr n q := by
  have hoff : ∀ (ch : Fin 3) (k : Fin 60), laneOff x0 x1 ch k l = off P Vv n q k ch := fun ch k => by
    unfold laneOff off; rw [h0, h1]
  have hdist : ∀ k : Fin 60, laneDist x0 x1 k l = SdfSpec.dist P Vv n q k := fun k => by
    unfold laneDist SdfSpec.dist; exact Finset.sum_congr rfl fun ch _ => by rw [hoff]
  have hw : ∀ k : Fin 60, laneWeight x0 x1 x3 k l = weight P Vv Sr n q k := fun k => by
    unfold laneWeight weight; rw [hdist, h3]
  have hp : ∀ k : Fin 60, laneProj x0 x1 x2 k l = proj P Vv Vn n q k := fun k => by
    unfold laneProj proj; exact Finset.sum_congr rfl fun ch _ => by rw [hoff, h2]
  unfold laneSdf sdf
  exact congrArg₂ Ideal.div (Finset.sum_congr rfl fun k _ => by rw [hw, hp]) (Finset.sum_congr rfl fun k _ => by rw [hw])

/-- The masked square sum of the block whose first position is `b`, when every lane whose position is a point holds
    that point's entries: the sum over the block's positions of the squared signed distance, zero past the last point. -/
theorem block_sum_eq (P : Pts) (Vv Vn : Nbr) (Sr : Rad) (n : Fin 2) (b : ℕ)
    (h0 : ∀ (l : Fin 2048) (hq : b + l.val < 100000) (ch : Fin 3), x0 (ix3 (0 : Fin 1) ch l) = P (ix3 n ⟨b + l.val, hq⟩ ch))
    (h1 : ∀ (l : Fin 2048) (hq : b + l.val < 100000) (ch : Fin 3) (k : Fin 60),
      x1 (ix4 (0 : Fin 1) ch k l) = Vv (ix4 n ⟨b + l.val, hq⟩ k ch))
    (h2 : ∀ (l : Fin 2048) (hq : b + l.val < 100000) (ch : Fin 3) (k : Fin 60),
      x2 (ix4 (0 : Fin 1) ch k l) = Vn (ix4 n ⟨b + l.val, hq⟩ k ch))
    (h3 : ∀ (l : Fin 2048) (hq : b + l.val < 100000) (k : Fin 60), x3 (ix3 (0 : Fin 1) k l) = Sr (ix3 n ⟨b + l.val, hq⟩ k)) :
    (∑ l : Fin 2048, (if b + l.val < 100000 then k0_pay4 (F := Ideal) x0 x1 x2 x3 (ix2 (0 : Fin 1) l)
        * k0_pay4 (F := Ideal) x0 x1 x2 x3 (ix2 (0 : Fin 1) l) else 0))
      = ∑ l : Fin 2048, sqAt P Vv Vn Sr n (b + l.val) := by
  refine Finset.sum_congr rfl fun l _ => ?_
  unfold sqAt
  by_cases hq : b + l.val < 100000
  · rw [if_pos hq, dif_pos hq, pay_sdf_apply,
      laneSdf_eq_sdf x0 x1 x2 x3 P Vv Vn Sr n ⟨b + l.val, hq⟩ l (h0 l hq) (h1 l hq) (h2 l hq) (h3 l hq)]
  · rw [if_neg hq, dif_neg hq]

/-! ## The masked square sum of a block, added to the running total -/

open Cert.Lib.SignedWords in
/-- The mask bit of lane `l` in a block whose first position is `b`: set exactly when position `b + l` is a point. -/
theorem mask_bit (v32 : BitVec 32) (b : ℕ) (hv : v32.toNat = b) (hb : b + 2048 ≤ 2 ^ 31) (l : Fin 2048) :
    IntOp.cmpi .slt (IntOp.addi v32 (BitVec.ofNat 32 l.val)) 100000#32 = if b + l.val < 100000 then 1#1 else 0#1 := by
  have hl := l.isLt
  have hu : (IntOp.addi v32 (BitVec.ofNat 32 l.val)).toNat = b + l.val := by
    show (v32 + BitVec.ofNat 32 l.val).toNat = _
    rw [BitVec.toNat_add, BitVec.toNat_ofNat, hv]
    omega
  rw [slt_words _ _ (by rw [hu]; omega) (by decide), hu]
  rfl

/-- The signed distances of a block with the lanes past the last point set to zero, as the body forms them. -/
def maskedV (v31 : FVec Ideal S1x2048 .f32) (v32 : BitVec 32) : FVec Ideal S1x2048 .f32 :=
  select (cmpi .slt (addi (broadcast S1x2048 v32) (iota .tc S1x2048 32 [1] iota_S1x2048_d1_w32)) (broadcast S1x2048 100000#32))
    v31 (broadcast S1x2048 (Scalar.ofBits .f32 0x00000000#32))

theorem maskedV_apply (v31 : FVec Ideal S1x2048 .f32) (v32 : BitVec 32) (b : ℕ) (hv : v32.toNat = b) (hb : b + 2048 ≤ 2 ^ 31)
    (l : Fin 2048) :
    maskedV v31 v32 (ix2 (0 : Fin 1) l) = if b + l.val < 100000 then v31 (ix2 (0 : Fin 1) l) else 0 := by
  unfold maskedV
  rw [select_apply]
  have hm : cmpi .slt (addi (broadcast S1x2048 v32) (iota .tc S1x2048 32 [1] iota_S1x2048_d1_w32)) (broadcast S1x2048 100000#32)
      (ix2 (0 : Fin 1) l) = if b + l.val < 100000 then 1#1 else 0#1 := by
    show IntOp.cmpi .slt (IntOp.addi v32 (iota .tc S1x2048 32 [1] iota_S1x2048_d1_w32 (ix2 (0 : Fin 1) l))) 100000#32 = _
    rw [iota_single_apply]
    exact mask_bit v32 b hv hb l
  rw [hm, broadcast_apply]
  by_cases h : b + l.val < 100000
  · rw [if_pos h, if_pos h, select_one]
  · rw [if_neg h, if_neg h, select_zero]
    exact Ideal.ofBits_zero_f32

/-- The value the body stores back into its running total: the total it found plus the sum, over the lanes whose
    position is a point, of the squared signed distance. -/
theorem pay_acc_apply (v31 : FVec Ideal S1x2048 .f32) (v32 : BitVec 32) (b : ℕ) (hv : v32.toNat = b) (hb : b + 2048 ≤ 2 ^ 31)
    (acc : FVec Ideal S1x1 .f32) :
    k0_pay1 (F := Ideal) v31 v32 (iota .tc S1x2048 32 [1] iota_S1x2048_d1_w32) acc (ix2 (0 : Fin 1) (0 : Fin 1))
      = acc (ix2 (0 : Fin 1) (0 : Fin 1))
        + ∑ l : Fin 2048, (if b + l.val < 100000 then v31 (ix2 (0 : Fin 1) l) * v31 (ix2 (0 : Fin 1) l) else 0) := by
  have e : k0_pay1 (F := Ideal) v31 v32 (iota .tc S1x2048 32 [1] iota_S1x2048_d1_w32) acc
      = shapeCast S1x1 (addf acc (shapeCast S1x1 (multiReduction .add [1] S1 (mulf (maskedV v31 v32) (maskedV v31 v32))
          0x00000000#32 reduces_S1x2048_S1 (.inl rfl) rfl) shapeCasts_S1_S1x1)) shapeCasts_S1x1_S1x1 := rfl
  rw [e, shapeCast_self, addf_apply, shapeCast_a_1a_apply, sum_lanes]
  refine congrArg (acc (ix2 (0 : Fin 1) (0 : Fin 1)) + ·) (Finset.sum_congr rfl fun l _ => ?_)
  rw [mulf_apply, maskedV_apply v31 v32 b hv hb l]
  by_cases h : b + l.val < 100000
  · rw [if_pos h, if_pos h]
  · rw [if_neg h, if_neg h, mul_zero]

/-- The zero the first block of a batch starts its running total from. -/
theorem pay_zero_apply (y : S1x1.Idx) : k0_pay3 (F := Ideal) y = 0 := by
  have e : k0_pay3 (F := Ideal) = shapeCast S1x1 (broadcast S1x1 (Scalar.ofBits .f32 0x00000000#32)) shapeCasts_S1x1_S1x1 := rfl
  rw [e, shapeCast_self, broadcast_apply]
  exact Ideal.ofBits_zero_f32

/-- The value written to the output block: the running total, a unit axis added. -/
theorem pay_out_apply (acc : FVec Ideal S1x1 .f32) :
    k0_pay2 (F := Ideal) acc (ix3 (0 : Fin 1) (0 : Fin 1) (0 : Fin 1)) = acc (ix2 (0 : Fin 1) (0 : Fin 1)) := by
  unfold k0_pay2
  exact shapeCast_ab_1ab_apply acc shapeCasts_S1x1_S1x1x1 (0 : Fin 1) (0 : Fin 1) (0 : Fin 1)

end Cert.KernelIdeal.LaneValue

end
-- ==== Proof.Pieces.lean ====
/-
  What one grid point leaves behind, as values.

  The body keeps a running total in a one-entry scratch buffer. At the first block of a batch it stores zero there
  and then the zero plus the block's masked square sum; at every later block it stores the total it finds plus the
  block's masked square sum; at the last block of a batch it also copies the total into the one-entry output block.
  The generated runs record these stores as lists of pieces; here each list is read back as the one value it
  amounts to, over the block's four input blocks and the total found.
-/
import proofs.«141588_j75806172774865_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The new running total from the block's inputs and the total found: the found total plus the masked square sum
    of the block whose first position is 2048 times the block's number along the point axis. -/
def step (i : grid0.Coords) (x0 : Vec F S1x3x2048 .f32) (x1 : Vec F S1x3x60x2048 .f32) (x2 : Vec F S1x3x60x2048 .f32) (x3 : Vec F S1x60x2048 .f32) (acc : Vec F S1x1 .f32) : Vec F S1x1 .f32 :=
  k0_pay1 (k0_pay4 x0 x1 x2 x3) (Scalar.muli (BitVec.ofNat 32 (i 1).val) 2048#32) (iota .tc S1x2048 32 [1] iota_S1x2048_d1_w32) acc

/-- First block of a batch: the running total restarts from zero. -/
theorem scratch_A (c : Dev nD) (i : grid0.Coords) (arg2 : Memref sig .tc .vmem S1x3x2048 .f32) (harg2 : arg2.IsWhole) (arg3 : Memref sig .tc .vmem S1x3x60x2048 .f32) (harg3 : arg3.IsWhole) (arg4 : Memref sig .tc .vmem S1x3x60x2048 .f32) (harg4 : arg4.IsWhole) (arg5 : Memref sig .tc .vmem S1x60x2048 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x3x2048 .f32) (x1 : Vec F S1x3x60x2048 .f32) (x2 : Vec F S1x3x60x2048 .f32) (x3 : Vec F S1x60x2048 .f32) :
    sout0_A_0 (F := F) c i arg2 harg2 arg3 harg3 arg4 harg4 arg5 harg5 arg6 harg6 arg7 harg7 hc0 hc1 x0 x1 x2 x3 = step i x0 x1 x2 x3 (k0_pay3 (F := F)) := by
  unfold sout0_A_0 step
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1x3x2048) hz3, View.ld_unit_zero (S := S1x3x60x2048) hz4, View.ld_unit_zero (S := S1x60x2048) hz3]

/-- A middle block: the total found plus the block's masked square sum. -/
theorem scratch_B (c : Dev nD) (i : grid0.Coords) (arg2 : Memref sig .tc .vmem S1x3x2048 .f32) (harg2 : arg2.IsWhole) (arg3 : Memref sig .tc .vmem S1x3x60x2048 .f32) (harg3 : arg3.IsWhole) (arg4 : Memref sig .tc .vmem S1x3x60x2048 .f32) (harg4 : arg4.IsWhole) (arg5 : Memref sig .tc .vmem S1x60x2048 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x3x2048 .f32) (x1 : Vec F S1x3x60x2048 .f32) (x2 : Vec F S1x3x60x2048 .f32) (x3 : Vec F S1x60x2048 .f32) (xs0 : Vec F S1x1 .f32) :
    sout0_B_0 (F := F) c i arg2 harg2 arg3 harg3 arg4 harg4 arg5 harg5 arg6 harg6 arg7 harg7 hc0 hc1 x0 x1 x2 x3 xs0 = step i x0 x1 x2 x3 xs0 := by
  unfold sout0_B_0 step
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x3x2048) hz3, View.ld_unit_zero (S := S1x3x60x2048) hz4, View.ld_unit_zero (S := S1x60x2048) hz3,
    View.ld_unit_zero (S := S1x1) hz2]

/-- The last block of a batch: the scratch total as at a middle block. -/
theorem scratch_C (c : Dev nD) (i : grid0.Coords) (arg2 : Memref sig .tc .vmem S1x3x2048 .f32) (harg2 : arg2.IsWhole) (arg3 : Memref sig .tc .vmem S1x3x60x2048 .f32) (harg3 : arg3.IsWhole) (arg4 : Memref sig .tc .vmem S1x3x60x2048 .f32) (harg4 : arg4.IsWhole) (arg5 : Memref sig .tc .vmem S1x60x2048 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x3x2048 .f32) (x1 : Vec F S1x3x60x2048 .f32) (x2 : Vec F S1x3x60x2048 .f32) (x3 : Vec F S1x60x2048 .f32) (xs0 : Vec F S1x1 .f32) :
    sout0_C_0 (F := F) c i arg2 harg2 arg3 harg3 arg4 harg4 arg5 harg5 arg6 harg6 arg7 harg7 hc0 hc1 x0 x1 x2 x3 xs0 = step i x0 x1 x2 x3 xs0 := by
  unfold sout0_C_0 step
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x3x2048) hz3, View.ld_unit_zero (S := S1x3x60x2048) hz4, View.ld_unit_zero (S := S1x60x2048) hz3,
    View.ld_unit_zero (S := S1x1) hz2]

/-- The last block of a batch: the output block receives the new running total, a unit axis added. -/
theorem out_C (c : Dev nD) (i : grid0.Coords) (arg2 : Memref sig .tc .vmem S1x3x2048 .f32) (harg2 : arg2.IsWhole) (arg3 : Memref sig .tc .vmem S1x3x60x2048 .f32) (harg3 : arg3.IsWhole) (arg4 : Memref sig .tc .vmem S1x3x60x2048 .f32) (harg4 : arg4.IsWhole) (arg5 : Memref sig .tc .vmem S1x60x2048 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x3x2048 .f32) (x1 : Vec F S1x3x60x2048 .f32) (x2 : Vec F S1x3x60x2048 .f32) (x3 : Vec F S1x60x2048 .f32) (xs0 : Vec F S1x1 .f32) :
    out0_C_4 (F := F) c i arg2 harg2 arg3 harg3 arg4 harg4 arg5 harg5 arg6 harg6 arg7 harg7 hc0 hc1 x0 x1 x2 x3 xs0 = k0_pay2 (step i x0 x1 x2 x3 xs0) := by
  unfold out0_C_4 step
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg7.read_unread,
    View.ld_unit_zero (S := S1x3x2048) hz3, View.ld_unit_zero (S := S1x3x60x2048) hz4, View.ld_unit_zero (S := S1x60x2048) hz3,
    View.ld_unit_zero (S := S1x1) hz2]

end Cert.KernelIdeal.Pieces

end
-- ==== Proof.Blocks.lean ====
/-
  A window's block at a grid point, read entry by entry.

  The grid has 2 × 49 points, batch outermost: point t is batch t / 49, block t % 49 of the point axis. Each input
  window's block at a point holds 2048 consecutive positions of one batch of its array: entry (0, …, l) of the block
  is the array's entry at batch n and position 2048·j + l.
-/
import proofs.«141588_j75806172774865_2_alg».proof.Proof.Gen.KernelIdeal.Frame.Runs
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F] (m : (ℓ : Loc nD τ sig) → Buf (Elt F) ℓ) (c : Dev nD)

/-! ## The windows' block indices, decided once over the 98 grid points -/

/-- The points' window at point `t` takes batch `t / 49`, all channels, block `t % 49` of the point axis. -/
theorem idx_points : ∀ t : Fin cfg0.N, win0_0.index t 0 = t.val / 49 ∧ win0_0.index t 1 = 0 ∧ win0_0.index t 2 = t.val % 49 :=
  (by decide +kernel : ∀ t : Fin grid0.N, win0_0.index t 0 = t.val / 49 ∧ win0_0.index t 1 = 0 ∧ win0_0.index t 2 = t.val % 49)

/-- The vertices' window at point `t` takes batch `t / 49`, all channels and neighbours, block `t % 49` of the point
    axis. -/
theorem idx_vertices : ∀ t : Fin cfg0.N, win0_1.index t 0 = t.val / 49 ∧ win0_1.index t 1 = 0 ∧ win0_1.index t 2 = 0
    ∧ win0_1.index t 3 = t.val % 49 :=
  (by decide +kernel : ∀ t : Fin grid0.N, win0_1.index t 0 = t.val / 49 ∧ win0_1.index t 1 = 0 ∧ win0_1.index t 2 = 0
    ∧ win0_1.index t 3 = t.val % 49)

/-- The normals' window at point `t` takes batch `t / 49`, all channels and neighbours, block `t % 49` of the point
    axis. -/
theorem idx_normals : ∀ t : Fin cfg0.N, win0_2.index t 0 = t.val / 49 ∧ win0_2.index t 1 = 0 ∧ win0_2.index t 2 = 0
    ∧ win0_2.index t 3 = t.val % 49 :=
  (by decide +kernel : ∀ t : Fin grid0.N, win0_2.index t 0 = t.val / 49 ∧ win0_2.index t 1 = 0 ∧ win0_2.index t 2 = 0
    ∧ win0_2.index t 3 = t.val % 49)

/-- The radii's window at point `t` takes batch `t / 49`, all neighbours, block `t % 49` of the point axis. -/
theorem idx_radii : ∀ t : Fin cfg0.N, win0_3.index t 0 = t.val / 49 ∧ win0_3.index t 1 = 0 ∧ win0_3.index t 2 = t.val % 49 :=
  (by decide +kernel : ∀ t : Fin grid0.N, win0_3.index t 0 = t.val / 49 ∧ win0_3.index t 1 = 0 ∧ win0_3.index t 2 = t.val % 49)

/-! ## The blocks read at an entry -/

/-- The points' block at point `t` = batch `n`, block `j`: entry (0, ch, l) is the array's entry (n, ch, 2048·j + l). -/
theorem iblk_points_apply (t : Fin cfg0.N) (n : Fin 2) (j : Fin 49) (ht : t.val = n.val * 49 + j.val) (ch : Fin 3) (l : Fin 2048)
    (q : Fin 100352) (hq : q.val = j.val * 2048 + l.val) :
    (iblk m c 0 t : S1x3x2048.Idx → Elt F .f32) (ix3 (0 : Fin 1) ch l) = (V m c main_v4 : S2x3x100352.Idx → Elt F .f32) (ix3 n ch q) := by
  have hi := idx_points t
  have hn : t.val / 49 = n.val := by omega
  have hj : t.val % 49 = j.val := by omega
  unfold iblk
  rw [View.read_apply]
  show (V m c main_v4 : S2x3x100352.Idx → Elt F .f32) _ = (V m c main_v4 : S2x3x100352.Idx → Elt F .f32) (ix3 n ch q)
  refine congrArg (V m c main_v4 : S2x3x100352.Idx → Elt F .f32) (funext fun a => Fin.ext ?_)
  match a with
  | ⟨0, _⟩ => show win0_0.index t 0 * 1 + 1 * 0 = n.val; rw [hi.1]; omega
  | ⟨1, _⟩ => show win0_0.index t 1 * 3 + 1 * ch.val = ch.val; rw [hi.2.1]; omega
  | ⟨2, _⟩ => show win0_0.index t 2 * 2048 + 1 * l.val = q.val; rw [hi.2.2, hq]; omega

/-- The vertices' block: entry (0, ch, k, l) is the array's entry (n, ch, k, 2048·j + l). -/
theorem iblk_vertices_apply (t : Fin cfg0.N) (n : Fin 2) (j : Fin 49) (ht : t.val = n.val * 49 + j.val) (ch : Fin 3) (k : Fin 60) (l : Fin 2048)
    (q : Fin 100352) (hq : q.val = j.val * 2048 + l.val) :
    (iblk m c 1 t : S1x3x60x2048.Idx → Elt F .f32) (ix4 (0 : Fin 1) ch k l) = (V m c main_v5 : S2x3x60x100352.Idx → Elt F .f32) (ix4 n ch k q) := by
  have hi := idx_vertices t
  have hn : t.val / 49 = n.val := by omega
  have hj : t.val % 49 = j.val := by omega
  unfold iblk
  rw [View.read_apply]
  show (V m c main_v5 : S2x3x60x100352.Idx → Elt F .f32) _ = (V m c main_v5 : S2x3x60x100352.Idx → Elt F .f32) (ix4 n ch k q)
  refine congrArg (V m c main_v5 : S2x3x60x100352.Idx → Elt F .f32) (funext fun a => Fin.ext ?_)
  match a with
  | ⟨0, _⟩ => show win0_1.index t 0 * 1 + 1 * 0 = n.val; rw [hi.1]; omega
  | ⟨1, _⟩ => show win0_1.index t 1 * 3 + 1 * ch.val = ch.val; rw [hi.2.1]; omega
  | ⟨2, _⟩ => show win0_1.index t 2 * 60 + 1 * k.val = k.val; rw [hi.2.2.1]; omega
  | ⟨3, _⟩ => show win0_1.index t 3 * 2048 + 1 * l.val = q.val; rw [hi.2.2.2, hq]; omega

/-- The normals' block: entry (0, ch, k, l) is the array's entry (n, ch, k, 2048·j + l). -/
theorem iblk_normals_apply (t : Fin cfg0.N) (n : Fin 2) (j : Fin 49) (ht : t.val = n.val * 49 + j.val) (ch : Fin 3) (k : Fin 60) (l : Fin 2048)
    (q : Fin 100352) (hq : q.val = j.val * 2048 + l.val) :
    (iblk m c 2 t : S1x3x60x2048.Idx → Elt F .f32) (ix4 (0 : Fin 1) ch k l) = (V m c main_v6 : S2x3x60x100352.Idx → Elt F .f32) (ix4 n ch k q) := by
  have hi := idx_normals t
  have hn : t.val / 49 = n.val := by omega
  have hj : t.val % 49 = j.val := by omega
  unfold iblk
  rw [View.read_apply]
  show (V m c main_v6 : S2x3x60x100352.Idx → Elt F .f32) _ = (V m c main_v6 : S2x3x60x100352.Idx → Elt F .f32) (ix4 n ch k q)
  refine congrArg (V m c main_v6 : S2x3x60x100352.Idx → Elt F .f32) (funext fun a => Fin.ext ?_)
  match a with
  | ⟨0, _⟩ => show win0_2.index t 0 * 1 + 1 * 0 = n.val; rw [hi.1]; omega
  | ⟨1, _⟩ => show win0_2.index t 1 * 3 + 1 * ch.val = ch.val; rw [hi.2.1]; omega
  | ⟨2, _⟩ => show win0_2.index t 2 * 60 + 1 * k.val = k.val; rw [hi.2.2.1]; omega
  | ⟨3, _⟩ => show win0_2.index t 3 * 2048 + 1 * l.val = q.val; rw [hi.2.2.2, hq]; omega

/-- The radii's block: entry (0, k, l) is the array's entry (n, k, 2048·j + l). -/
theorem iblk_radii_apply (t : Fin cfg0.N) (n : Fin 2) (j : Fin 49) (ht : t.val = n.val * 49 + j.val) (k : Fin 60) (l : Fin 2048)
    (q : Fin 100352) (hq : q.val = j.val * 2048 + l.val) :
    (iblk m c 3 t : S1x60x2048.Idx → Elt F .f32) (ix3 (0 : Fin 1) k l) = (V m c main_v7 : S2x60x100352.Idx → Elt F .f32) (ix3 n k q) := by
  have hi := idx_radii t
  have hn : t.val / 49 = n.val := by omega
  have hj : t.val % 49 = j.val := by omega
  unfold iblk
  rw [View.read_apply]
  show (V m c main_v7 : S2x60x100352.Idx → Elt F .f32) _ = (V m c main_v7 : S2x60x100352.Idx → Elt F .f32) (ix3 n k q)
  refine congrArg (V m c main_v7 : S2x60x100352.Idx → Elt F .f32) (funext fun a => Fin.ext ?_)
  match a with
  | ⟨0, _⟩ => show win0_3.index t 0 * 1 + 1 * 0 = n.val; rw [hi.1]; omega
  | ⟨1, _⟩ => show win0_3.index t 1 * 60 + 1 * k.val = k.val; rw [hi.2.1]; omega
  | ⟨2, _⟩ => show win0_3.index t 2 * 2048 + 1 * l.val = q.val; rw [hi.2.2, hq]; omega

end Cert.KernelIdeal.Blocks

end
-- ==== Proof.HostPrefix.lean ====
/-
  The arrays the region is entered with are the arguments with the point axis moved last and padded.

  Before the region the host transposes each of the four arguments so that the point axis comes last — the points
  `[batch, point, channel]` become `[batch, channel, point]`, the vertices and the normals
  `[batch, point, neighbour, channel]` become `[batch, channel, neighbour, point]`, the squared radii
  `[batch, point, neighbour]` become `[batch, neighbour, point]` — and pads that last axis from 100000 to 100352
  positions (no padding before, none between entries, 352 positions after). Each array at region entry is therefore the
  pad of the transpose of its argument; and at an index whose last coordinate `q` is below 100000, inside the unpadded
  part, its entry is the argument's entry at the transposed index, with `q` as the point.
-/
import proofs.«141588_j75806172774865_2_alg».proof.Proof.Gen.KernelIdeal.Frame.Runs
import Idealize.ShloMosaic.Lib.StableHlo.Run
import Idealize.ShloMosaic.Lib.KernelVsHost
import Idealize.ShloMosaic.Lib.ValueLayout
import Idealize.ShloMosaic.Lib.ValueIdx
import Idealize.ShloMosaic.Lib.Pipeline.Value

noncomputable section

namespace Cert.KernelIdeal.HostPrefix

open Idealize.ShloMosaic Idealize.ShloMosaic.TcCoe Idealize.SL.Sem Idealize.ShloMosaic.ValueIdx Cert.KernelIdeal Cert.KernelIdeal.Gen
open Idealize.ShloMosaic.StableHlo

variable {F : FTy → Type} [FloatOps F] (m : (ℓ : Loc nD τ sig) → Buf (Elt F) ℓ) (c : Dev nD)

/-! ## The four arrays at region entry, as the host operations' terms -/

/-- The points at region entry: the argument with its last two axes swapped, padded along the new last axis. -/
theorem V_points_eq :
    (V m c main_v4 : S2x3x100352.Idx → Elt F .f32)
      = pad S2x3x100352 ![0, 0, 0] ![0, 0, 352] ![0, 0, 0]
          (transpose S2x3x100000 [0, 2, 1] (m ((c : Thread nD τ).loc main_arg0)) transposes_S2x100000x3_S2x3x100000_0_2_1)
          (sitofp (F := F) .f32 (constantI S_ 32 0#32)) pads_S2x3x100000_S2x3x100352_000_000_03520 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The vertices at region entry: the argument with the point and channel axes exchanged, padded along the new last
    axis. -/
theorem V_vertices_eq :
    (V m c main_v5 : S2x3x60x100352.Idx → Elt F .f32)
      = pad S2x3x60x100352 ![0, 0, 0, 0] ![0, 0, 0, 352] ![0, 0, 0, 0]
          (transpose S2x3x60x100000 [0, 3, 2, 1] (m ((c : Thread nD τ).loc main_arg1)) transposes_S2x100000x60x3_S2x3x60x100000_0_3_2_1)
          (sitofp (F := F) .f32 (constantI S_ 32 0#32)) pads_S2x3x60x100000_S2x3x60x100352_000_000_000_03520 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The normals at region entry: the argument with the point and channel axes exchanged, padded along the new last
    axis. -/
theorem V_normals_eq :
    (V m c main_v6 : S2x3x60x100352.Idx → Elt F .f32)
      = pad S2x3x60x100352 ![0, 0, 0, 0] ![0, 0, 0, 352] ![0, 0, 0, 0]
          (transpose S2x3x60x100000 [0, 3, 2, 1] (m ((c : Thread nD τ).loc main_arg2)) transposes_S2x100000x60x3_S2x3x60x100000_0_3_2_1)
          (sitofp (F := F) .f32 (constantI S_ 32 0#32)) pads_S2x3x60x100000_S2x3x60x100352_000_000_000_03520 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The squared radii at region entry: the argument with its last two axes swapped, padded along the new last axis. -/
theorem V_radii_eq :
    (V m c main_v7 : S2x60x100352.Idx → Elt F .f32)
      = pad S2x60x100352 ![0, 0, 0] ![0, 0, 352] ![0, 0, 0]
          (transpose S2x60x100000 [0, 2, 1] (m ((c : Thread nD τ).loc main_arg3)) transposes_S2x100000x60_S2x60x100000_0_2_1)
          (constant (F := F) S_ .f32 0x3F800000#32) pads_S2x60x100000_S2x60x100352_000_000_03520 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-! ## Their entries inside the unpadded part -/

/-- Inside the unpadded part the points at region entry are the argument's: channel `ch` of point `q`. -/
theorem V_points_apply (n : Fin 2) (ch : Fin 3) (q : Fin 100352) (hq : q.val < 100000) :
    (V m c main_v4 : S2x3x100352.Idx → Elt F .f32) (ix3 n ch q)
      = (m ((c : Thread nD τ).loc main_arg0) : S2x100000x3.Idx → Elt F .f32) (ix3 n ⟨q.val, hq⟩ ch) := by
  refine (congrFun (V_points_eq m c) _).trans ?_
  refine (pad_apply_of_inside _ _ _ _ _ _ _ _ (ix3 n ch ⟨q.val, hq⟩) (fun a => ?_)).trans ?_
  · match a with
    | ⟨0, _⟩ => show n.val = 0 + n.val * (0 + 1); omega
    | ⟨1, _⟩ => show ch.val = 0 + ch.val * (0 + 1); omega
    | ⟨2, _⟩ => show q.val = 0 + q.val * (0 + 1); omega
  · exact transpose_ix3_021_apply _ _ n ch ⟨q.val, hq⟩

/-- Inside the unpadded part the vertices at region entry are the argument's: channel `ch` of neighbour `k` of point
    `q`. -/
theorem V_vertices_apply (n : Fin 2) (ch : Fin 3) (k : Fin 60) (q : Fin 100352) (hq : q.val < 100000) :
    (V m c main_v5 : S2x3x60x100352.Idx → Elt F .f32) (ix4 n ch k q)
      = (m ((c : Thread nD τ).loc main_arg1) : S2x100000x60x3.Idx → Elt F .f32) (ix4 n ⟨q.val, hq⟩ k ch) := by
  refine (congrFun (V_vertices_eq m c) _).trans ?_
  refine (pad_apply_of_inside _ _ _ _ _ _ _ _ (ix4 n ch k ⟨q.val, hq⟩) (fun a => ?_)).trans ?_
  · match a with
    | ⟨0, _⟩ => show n.val = 0 + n.val * (0 + 1); omega
    | ⟨1, _⟩ => show ch.val = 0 + ch.val * (0 + 1); omega
    | ⟨2, _⟩ => show k.val = 0 + k.val * (0 + 1); omega
    | ⟨3, _⟩ => show q.val = 0 + q.val * (0 + 1); omega
  · exact transpose_apply _ _ _ _ (ix4 n ⟨q.val, hq⟩ k ch) fun b =>
      match b with | ⟨0, _⟩ => rfl | ⟨1, _⟩ => rfl | ⟨2, _⟩ => rfl | ⟨3, _⟩ => rfl

/-- Inside the unpadded part the normals at region entry are the argument's: channel `ch` of neighbour `k` of point
    `q`. -/
theorem V_normals_apply (n : Fin 2) (ch : Fin 3) (k : Fin 60) (q : Fin 100352) (hq : q.val < 100000) :
    (V m c main_v6 : S2x3x60x100352.Idx → Elt F .f32) (ix4 n ch k q)
      = (m ((c : Thread nD τ).loc main_arg2) : S2x100000x60x3.Idx → Elt F .f32) (ix4 n ⟨q.val, hq⟩ k ch) := by
  refine (congrFun (V_normals_eq m c) _).trans ?_
  refine (pad_apply_of_inside _ _ _ _ _ _ _ _ (ix4 n ch k ⟨q.val, hq⟩) (fun a => ?_)).trans ?_
  · match a with
    | ⟨0, _⟩ => show n.val = 0 + n.val * (0 + 1); omega
    | ⟨1, _⟩ => show ch.val = 0 + ch.val * (0 + 1); omega
    | ⟨2, _⟩ => show k.val = 0 + k.val * (0 + 1); omega
    | ⟨3, _⟩ => show q.val = 0 + q.val * (0 + 1); omega
  · exact transpose_apply _ _ _ _ (ix4 n ⟨q.val, hq⟩ k ch) fun b =>
      match b with | ⟨0, _⟩ => rfl | ⟨1, _⟩ => rfl | ⟨2, _⟩ => rfl | ⟨3, _⟩ => rfl

/-- Inside the unpadded part the squared radii at region entry are the argument's: neighbour `k` of point `q`. -/
theorem V_radii_apply (n : Fin 2) (k : Fin 60) (q : Fin 100352) (hq : q.val < 100000) :
    (V m c main_v7 : S2x60x100352.Idx → Elt F .f32) (ix3 n k q)
      = (m ((c : Thread nD τ).loc main_arg3) : S2x100000x60.Idx → Elt F .f32) (ix3 n ⟨q.val, hq⟩ k) := by
  refine (congrFun (V_radii_eq m c) _).trans ?_
  refine (pad_apply_of_inside _ _ _ _ _ _ _ _ (ix3 n k ⟨q.val, hq⟩) (fun a => ?_)).trans ?_
  · match a with
    | ⟨0, _⟩ => show n.val = 0 + n.val * (0 + 1); omega
    | ⟨1, _⟩ => show k.val = 0 + k.val * (0 + 1); omega
    | ⟨2, _⟩ => show q.val = 0 + q.val * (0 + 1); omega
  · exact transpose_ix3_021_apply _ _ n k ⟨q.val, hq⟩

end Cert.KernelIdeal.HostPrefix

end
-- ==== Proof.LibBlockSum.lean ====
/-
  A sum over consecutive blocks of positions.

  Cut the naturals below B·L into B consecutive blocks of L positions. Summing a function block by block, position
  by position inside a block, is summing it over all positions below B·L; and when the function vanishes from N
  on, N ≤ B·L, that is the sum over the first N positions only — the last blocks may overhang the range that
  matters. Stated in any commutative additive monoid, so it holds on the extended reals, where no cancellation is
  available.
-/
import Mathlib.Algebra.BigOperators.Fin
import Mathlib.Algebra.BigOperators.Intervals

namespace Cert.Lib.BlockSum

variable {M : Type*} [AddCommMonoid M]

/-- The sum over `B` consecutive blocks of `L` positions is the sum over the first `B * L` positions. -/
theorem sum_range_blocks (L : ℕ) (f : ℕ → M) :
    ∀ B : ℕ, ∑ j ∈ Finset.range B, ∑ l ∈ Finset.range L, f (j * L + l) = ∑ q ∈ Finset.range (B * L), f q
  | 0 => by simp
  | B + 1 => by
    rw [Finset.sum_range_succ, sum_range_blocks L f B, Nat.succ_mul, Finset.sum_range_add]

/-- Blocks indexed by `Fin L` inside, by a range outside; a function that vanishes from `N` on; `N` positions
    covered by the `B` blocks: the block sums add up to the sum over the first `N` positions. -/
theorem sum_blocks_eq (B L N : ℕ) (hN : N ≤ B * L) (f : ℕ → M) (hf : ∀ q, N ≤ q → f q = 0) :
    ∑ j ∈ Finset.range B, ∑ l : Fin L, f (j * L + l.val) = ∑ p : Fin N, f p.val := by
  have h1 : ∀ j, ∑ l : Fin L, f (j * L + l.val) = ∑ l ∈ Finset.range L, f (j * L + l) :=
    fun j => Fin.sum_univ_eq_sum_range (fun l => f (j * L + l)) L
  rw [Finset.sum_congr rfl fun j _ => h1 j, sum_range_blocks, Fin.sum_univ_eq_sum_range (fun q => f q) N]
  obtain ⟨d, hd⟩ := Nat.exists_eq_add_of_le hN
  rw [hd, Finset.sum_range_add]
  have h0 : ∑ x ∈ Finset.range d, f (N + x) = 0 := Finset.sum_eq_zero fun x _ => hf _ (Nat.le_add_right _ _)
  rw [h0, add_zero]

end Cert.Lib.BlockSum
-- ==== Proof.Accumulate.lean ====
/-
  The running total over the grid.

  The grid runs over the 2 batches and, inside a batch, over the 49 blocks of 2048 positions of the point axis; point
  t is batch t / 49, block t % 49. At each point the body adds the block's masked square sum to the total it carries
  in its scratch entry, restarting from zero at a batch's first block. So after block j of batch n the scratch entry
  holds the sum over the blocks 0 … j of the batch of the block sums — each block sum being the sum over the block's
  2048 positions of the squared signed distance, zero past the last point — and after the batch's last block the
  output block receives that total: the sum over all the batch's points.
-/
import proofs.«141588_j75806172774865_2_alg».proof.Proof.Gen.KernelIdeal.Frame
import proofs.«141588_j75806172774865_2_alg».proof.Proof.SdfSpec
import proofs.«141588_j75806172774865_2_alg».proof.Proof.LaneValue
import proofs.«141588_j75806172774865_2_alg».proof.Proof.Pieces
import proofs.«141588_j75806172774865_2_alg».proof.Proof.Blocks
import proofs.«141588_j75806172774865_2_alg».proof.Proof.HostPrefix
import proofs.«141588_j75806172774865_2_alg».proof.Proof.LibBlockSum

set_option maxRecDepth 16384

noncomputable section

namespace Cert.KernelIdeal.Accumulate

open Idealize.ShloMosaic Idealize.ShloMosaic.TcCoe Idealize.SL.Sem Idealize.ShloMosaic.ValueIdx
open Cert.KernelIdeal Cert.KernelIdeal.Gen Cert.SdfSpec

variable (m : (ℓ : Loc nD τ sig) → Buf (Elt Ideal) ℓ) (c : Dev nD)

/-- The four argument arrays as the launch memory holds them. -/
def argP : Pts := m ((c : Thread nD τ).loc main_arg0)
def argV : Nbr := m ((c : Thread nD τ).loc main_arg1)
def argN : Nbr := m ((c : Thread nD τ).loc main_arg2)
def argR : Rad := m ((c : Thread nD τ).loc main_arg3)

/-- The sum over block `j` of batch `n`: over its 2048 positions, the squared signed distance, zero past the last point. -/
def blockSum (n : Fin 2) (j : ℕ) : EReal :=
  ∑ l : Fin 2048, sqAt (argP m c) (argV m c) (argN m c) (argR m c) n (j * 2048 + l.val)

/-- The second grid coordinate of point `t` is its block number `t % 49`. -/
theorem coords_block : ∀ t : Fin cfg0.N, ((grid0.coords t) 1).val = t.val % 49 :=
  (by decide +kernel : ∀ t : Fin grid0.N, ((grid0.coords t) 1).val = t.val % 49)

/-- One step of the running total at point `t` = batch `n`, block `j`: the total found plus the block's sum. -/
theorem step_value (t : Fin cfg0.N) (n : Fin 2) (j : Fin 49) (ht : t.val = n.val * 49 + j.val) (acc : Vec Ideal S1x1 .f32) :
    Pieces.step (grid0.coords t) (iblk m c 0 t) (iblk m c 1 t) (iblk m c 2 t) (iblk m c 3 t) acc (ix2 (0 : Fin 1) (0 : Fin 1))
      = acc (ix2 (0 : Fin 1) (0 : Fin 1)) + blockSum m c n j.val := by
  have hjlt := j.isLt
  have hnlt := n.isLt
  have hj : ((grid0.coords t) 1).val = j.val := by rw [coords_block]; omega
  have hv : (Scalar.muli (BitVec.ofNat 32 ((grid0.coords t) 1).val) 2048#32).toNat = j.val * 2048 := by
    rw [hj]
    show (BitVec.ofNat 32 j.val * 2048#32).toNat = _
    rw [BitVec.toNat_mul, BitVec.toNat_ofNat, BitVec.toNat_ofNat]
    omega
  have hlt : ∀ l : Fin 2048, j.val * 2048 + l.val < 100352 := fun l => by have := l.isLt; omega
  unfold Pieces.step
  refine (LaneValue.pay_acc_apply (k0_pay4 (F := Ideal) (iblk m c 0 t) (iblk m c 1 t) (iblk m c 2 t) (iblk m c 3 t)) _ (j.val * 2048) hv (by omega) acc).trans ?_
  refine congrArg (acc (ix2 (0 : Fin 1) (0 : Fin 1)) + ·) ?_
  exact LaneValue.block_sum_eq (iblk m c 0 t) (iblk m c 1 t) (iblk m c 2 t) (iblk m c 3 t) (argP m c) (argV m c) (argN m c) (argR m c) n (j.val * 2048)
    (fun l hq ch => (Blocks.iblk_points_apply m c t n j ht ch l ⟨j.val * 2048 + l.val, hlt l⟩ rfl).trans
      (HostPrefix.V_points_apply m c n ch ⟨j.val * 2048 + l.val, hlt l⟩ hq))
    (fun l hq ch k => (Blocks.iblk_vertices_apply m c t n j ht ch k l ⟨j.val * 2048 + l.val, hlt l⟩ rfl).trans
      (HostPrefix.V_vertices_apply m c n ch k ⟨j.val * 2048 + l.val, hlt l⟩ hq))
    (fun l hq ch k => (Blocks.iblk_normals_apply m c t n j ht ch k l ⟨j.val * 2048 + l.val, hlt l⟩ rfl).trans
      (HostPrefix.V_normals_apply m c n ch k ⟨j.val * 2048 + l.val, hlt l⟩ hq))
    (fun l hq k => (Blocks.iblk_radii_apply m c t n j ht k l ⟨j.val * 2048 + l.val, hlt l⟩ rfl).trans
      (HostPrefix.V_radii_apply m c n k ⟨j.val * 2048 + l.val, hlt l⟩ hq))

/-- At a batch's first block the scratch entry is one step from zero. -/
theorem scratch_first (t : Fin cfg0.N) (h0 : t.val % 49 = 0) :
    (outsAt0 m c t.val t.isLt).2 = Pieces.step (grid0.coords t) (iblk m c 0 t) (iblk m c 1 t) (iblk m c 2 t) (iblk m c 3 t) (k0_pay3 (F := Ideal)) := by
  have h1 : ¬t.val % 49 = 48 := by omega
  rw [outsAt0_A m c t h0 h1]
  exact Pieces.scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other block it is one step from what the block before left. -/
theorem scratch_next (t : Fin cfg0.N) (h0 : ¬t.val % 49 = 0) :
    (outsAt0 m c t.val t.isLt).2 = Pieces.step (grid0.coords t) (iblk m c 0 t) (iblk m c 1 t) (iblk m c 2 t) (iblk m c 3 t)
      (outsAt0 m c (t.val - 1) (Nat.lt_of_le_of_lt (Nat.sub_le _ _) t.isLt)).2 := by
  by_cases h1 : t.val % 49 = 48
  · rw [outsAt0_C m c t h0 h1]
    exact Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _
  · rw [outsAt0_B m c t h0 h1]
    exact Pieces.scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _

/-- At a batch's last block the output block receives the new scratch entry, a unit axis added. -/
theorem out_block (t : Fin cfg0.N) (h0 : ¬t.val % 49 = 0) (h1 : t.val % 49 = 48) :
    (outsAt0 m c t.val t.isLt).1 = k0_pay2 (Pieces.step (grid0.coords t) (iblk m c 0 t) (iblk m c 1 t) (iblk m c 2 t) (iblk m c 3 t)
      (outsAt0 m c (t.val - 1) (Nat.lt_of_le_of_lt (Nat.sub_le _ _) t.isLt)).2) := by
  rw [outsAt0_C m c t h0 h1]
  exact Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _

/-- So its one entry is the scratch entry. -/
theorem out_last (t : Fin cfg0.N) (h1 : t.val % 49 = 48) :
    (outsAt0 m c t.val t.isLt).1 (ix3 (0 : Fin 1) (0 : Fin 1) (0 : Fin 1))
      = (outsAt0 m c t.val t.isLt).2 (ix2 (0 : Fin 1) (0 : Fin 1)) := by
  have h0 : ¬t.val % 49 = 0 := by omega
  rw [scratch_next m c t h0, out_block m c t h0 h1]
  exact LaneValue.pay_out_apply _

/-- After block `j` of batch `n` the scratch entry holds the sum of the block sums of the blocks 0 … j. -/
theorem scratch_eq : ∀ (k : ℕ) (h : k < cfg0.N) (n : Fin 2) (j : Fin 49) (hk : k = n.val * 49 + j.val),
    (outsAt0 m c k h).2 (ix2 (0 : Fin 1) (0 : Fin 1)) = ∑ j' ∈ Finset.range (j.val + 1), blockSum m c n j'
  | 0, h, n, j, hk => by
    have hj : j.val = 0 := by omega
    rw [scratch_first m c ⟨0, h⟩ rfl, step_value m c ⟨0, h⟩ n j hk, LaneValue.pay_zero_apply, zero_add, hj,
      Finset.sum_range_one]
  | k + 1, h, n, j, hk => by
    have hjlt := j.isLt
    by_cases h0 : (k + 1) % 49 = 0
    · have hj : j.val = 0 := by omega
      rw [scratch_first m c ⟨k + 1, h⟩ h0, step_value m c ⟨k + 1, h⟩ n j hk, LaneValue.pay_zero_apply, zero_add, hj,
        Finset.sum_range_one]
    · have hj : 1 ≤ j.val := by omega
      rw [scratch_next m c ⟨k + 1, h⟩ h0, step_value m c ⟨k + 1, h⟩ n j hk]
      show (outsAt0 m c k _).2 (ix2 (0 : Fin 1) (0 : Fin 1)) + _ = _
      rw [scratch_eq k _ n ⟨j.val - 1, by omega⟩ (by show k = n.val * 49 + (j.val - 1); omega)]
      show (∑ j' ∈ Finset.range (j.val - 1 + 1), blockSum m c n j') + blockSum m c n j.val = _
      rw [Nat.sub_add_cancel hj, ← Finset.sum_range_succ]

/-- The block sums of a batch add up to the batch's result. -/
theorem blocks_total (n : Fin 2) :
    ∑ j' ∈ Finset.range 49, blockSum m c n j' = total (argP m c) (argV m c) (argN m c) (argR m c) n := by
  rw [total_eq_sum_sqAt]
  exact Cert.Lib.BlockSum.sum_blocks_eq 49 2048 100000 (by norm_num)
    (sqAt (argP m c) (argV m c) (argN m c) (argR m c) n) (fun q hq => by unfold sqAt; rw [dif_neg (by omega)])

/-- After the last block of batch `n` the output block holds the batch's result. -/
theorem out_total (t : Fin cfg0.N) (n : Fin 2) (ht : t.val = n.val * 49 + 48) :
    (outsAt0 m c t.val t.isLt).1 (ix3 (0 : Fin 1) (0 : Fin 1) (0 : Fin 1))
      = total (argP m c) (argV m c) (argN m c) (argR m c) n := by
  rw [out_last m c t (by omega), scratch_eq m c t.val t.isLt n ⟨48, by decide⟩ ht]
  exact blocks_total m c n

end Cert.KernelIdeal.Accumulate

end
-- ==== Proof.Final.lean ====
/-
  The kernel's result array.

  The output window has one block per batch, the one entry (n, 0, 0) of the [2, 1, 1] result, written back only after
  the batch's last block of positions, when it holds the batch's total. The two write-backs cover the array, so after
  the region it holds the two totals; the host's last operation drops the two unit axes, and the program's result is
  the specification: one total per batch.
-/
import proofs.«141588_j75806172774865_2_alg».proof.Proof.Accumulate
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.SdfSpec Cert.KernelIdeal.Accumulate

variable (m : (ℓ : Loc nD τ sig) → Buf (Elt Ideal) ℓ) (ρ : Dev nD → PrngReg) (c : Dev nD)

/-- The region's result array: entry (n, 0, 0) is batch `n`'s total. -/
def outArr : S2x1x1.Idx → EReal := fun i => total (argP m c) (argV m c) (argN m c) (argR m c) (i 0)

/-- The output window's block index at point `t` is (t / 49, 0, 0). -/
theorem idx_out : ∀ t : Fin cfg0.N, win0_4.index t 0 = t.val / 49 ∧ win0_4.index t 1 = 0 ∧ win0_4.index t 2 = 0 :=
  (by decide +kernel : ∀ t : Fin grid0.N, win0_4.index t 0 = t.val / 49 ∧ win0_4.index t 1 = 0 ∧ win0_4.index t 2 = 0)

/-- What a write-back writes is the result array's block: the batch's total. -/
theorem flushed_eq (t : Fin cfg0.N) (hf : (cfg0.win 4).flush t = true) :
    (dats m 0 c).flushed 4 t = ((cfg0.win 4).blk t).view.read (Elt Ideal) (outArr m c) := by
  have h48 : t.val % 49 = 48 := (flush0_4 t).mp hf
  have hN : t.val < 98 := lt_of_lt_of_eq t.isLt (show cfg0.N = 98 from N_0)
  show (cfg0.win 4).cut (grid0.coords t) ((dats m 0 c).after 4 t) = _
  rw [after0_4]
  funext y
  rw [View.read_apply]
  have hn : t.val / 49 < 2 := by omega
  have hy0 : (y 0).val < 1 := Nat.lt_of_lt_of_le (y 0).isLt ((cfg0.win 4).xsize_le (grid0.coords t) 0)
  have hy1 : (y 1).val < 1 := Nat.lt_of_lt_of_le (y 1).isLt ((cfg0.win 4).xsize_le (grid0.coords t) 1)
  have hy2 : (y 2).val < 1 := Nat.lt_of_lt_of_le (y 2).isLt ((cfg0.win 4).xsize_le (grid0.coords t) 2)
  have hL : (cfg0.win 4).cut (grid0.coords t) (outsAt0 m c t.val t.isLt).1 y
      = (outsAt0 m c t.val t.isLt).1 (ix3 (0 : Fin 1) (0 : Fin 1) (0 : Fin 1)) :=
    congrArg (outsAt0 m c t.val t.isLt).1 (funext fun a => Fin.ext (by
      match a with
      | ⟨0, _⟩ => show (y 0).val = 0; omega
      | ⟨1, _⟩ => show (y 1).val = 0; omega
      | ⟨2, _⟩ => show (y 2).val = 0; omega))
  refine hL.trans ((out_total m c t ⟨t.val / 49, hn⟩ (by show t.val = t.val / 49 * 49 + 48; omega)).trans ?_)
  rw [cast_eq]
  unfold outArr
  refine congrArg (total (argP m c) (argV m c) (argN m c) (argR m c)) (Fin.ext ?_)
  show t.val / 49 = win0_4.index t 0 * 1 + 1 * (y 0).val
  rw [(idx_out t).1]
  omega

/-- An entry of the result array is in the block written back after its batch's last block of positions. -/
theorem cover (i : ((cfg0.win 4).arr.view.loc (c.tc : Thread nD τ)).2.ty.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : cfg0.N = 98 := N_0
  obtain ⟨t, ht⟩ : ∃ t : Fin cfg0.N, t.val = (i 0).val * 49 + 48 := ⟨⟨(i 0).val * 49 + 48, by omega⟩, rfl⟩
  refine ⟨t, (flush0_4 t).mpr (by omega), ?_⟩
  show i ∈ ((View.whole main_v8).slice (win0_4.rect t)).set
  rw [View.set_slice_whole, Rect.mem_set_unit]
  intro a
  obtain ⟨e0, e1, e2⟩ := idx_out t
  match a with
  | ⟨0, _⟩ =>
    show win0_4.index t 0 * 1 ≤ (i 0).val ∧ (i 0).val < win0_4.index t 0 * 1 + 1
    rw [e0]; omega
  | ⟨1, _⟩ =>
    show win0_4.index t 1 * 1 ≤ (i 1).val ∧ (i 1).val < win0_4.index t 1 * 1 + 1
    rw [e1]; omega
  | ⟨2, _⟩ =>
    show win0_4.index t 2 * 1 ≤ (i 2).val ∧ (i 2).val < win0_4.index t 2 * 1 + 1
    rw [e2]; omega

/-- After the region the result array holds the two totals. -/
theorem final_out : (dats m 0 c).arrAt 4 cfg0.N = outArr m c :=
  (dats m 0 c).arrAt_eq_of_cover 4 (outArr m c) (flushed_eq m c) (cover c)

/-- The host's last operation drops the unit axes: the program's result is one total per batch. -/
theorem tail_eq : Pipeline.afterTail₀ cfgs (dats m) 0 (V0 m) [hostOps1] c main_v9
    = (G (argP m c) (argV m c) (argN m c) (argR m c) : S2.Idx → EReal) := by
  unfold Pipeline.afterTail₀
  show StableHlo.after hostOps1 _ (Proc.devRef .tc main_v9) = _
  after_results
  have hW : Pipeline.withArrays (cfgs 0).spec c (V0 m c) (fun w => (dats m 0 c).arrAt w (cfgs 0).N) (Proc.devRef .tc main_v8)
      = outArr m c := (Pipeline.withArrays_arr spec0 launch0.win.arr_inj c _ _ 4).trans (final_out m c)
  funext i
  obtain ⟨n, rfl⟩ : ∃ n : Fin 2, i = ix1 n := ⟨i 0, eq_ix1 i⟩
  show shapeCast S2 (Pipeline.withArrays (cfgs 0).spec c (V0 m c) (fun w => (dats m 0 c).arrAt w (cfgs 0).N)
    (Proc.devRef .tc main_v8)) shapeCasts_S2x1x1_S2 (ix1 n) = _
  rw [hW]
  refine (shapeCast_apply (outArr m c) shapeCasts_S2x1x1_S2 (ix1 n) (ix3 n (0 : Fin 1) (0 : Fin 1)) ?_).trans rfl
  rw [Shape.rowMajor_val_three, Shape.rowMajor_val_one]
  show (n.val * 1 + 0) * 1 + 0 = n.val
  omega

/-- The idealized kernel's run, read: the result buffer ends at the specification of the launch arguments, and the
    arguments end unchanged. -/
theorem run : θ_run defs (onTc (τ := τ) (main (F := Ideal))) ⟨m, fun _ => 0, ρ⟩ fun r => ∀ d : Dev nD,
      r.2.mem ((d.tc : Thread nD τ).loc main_v9) = (G (argP m d) (argV m d) (argN m d) (argR m d) : S2.Idx → EReal)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3) :=
  (θ_run defs _ _).mono (fun _ h d =>
    ⟨((h d).2 main_v9 (Pipeline.mem_restRefs_of main_v9 (by decide) (by decide))).trans (tail_eq m d),
      ((h d).2 main_arg0 (Pipeline.mem_restRefs_of main_arg0 (by decide) (by decide))).trans (W_main_arg0 m (dats m) d),
      ((h d).2 main_arg1 (Pipeline.mem_restRefs_of main_arg1 (by decide) (by decide))).trans (W_main_arg1 m (dats m) d),
      ((h d).2 main_arg2 (Pipeline.mem_restRefs_of main_arg2 (by decide) (by decide))).trans (W_main_arg2 m (dats m) d),
      ((h d).2 main_arg3 (Pipeline.mem_restRefs_of main_arg3 (by decide) (by decide))).trans (W_main_arg3 m (dats m) d)⟩)
    (run_main m ρ)

end Cert.KernelIdeal.Final

end
-- ==== Proof.lean ====
/-
  The squared signed-distance sum: the kernel against its reference.

  Both programs compute, for each of the two batches, the sum over the 100000 points of the squared signed distance,
  the signed distance of a point being the weighted mean over its 60 neighbours of the inner products of the offsets
  with the normals (Proof/SdfSpec.lean). The reference does so array operation by array operation
  (Proof/RefIsSpec.lean). The kernel moves the point axis last, pads it to 49 blocks of 2048 positions, and walks the
  blocks of a batch in order, adding to a running total each block's sum of squared signed distances with the
  positions past the last point set to zero; after a batch's last block it writes the total out, and the host drops
  the result's unit axes (Proof/LaneValue.lean, Pieces.lean, Blocks.lean, HostPrefix.lean, Accumulate.lean,
  Final.lean). Over the extended reals the two agree because addition is commutative and associative and the zeroed
  positions add nothing (Proof/LibBlockSum.lean): no cancellation and no distributivity is used, so the
  precondition's finiteness is never opened. The three frames are the generated ones; the idealization rewrote
  nothing, so the kernel's idealized program is the kernel's own text read over the extended reals.
-/
import proofs.«141588_j75806172774865_2_alg».proof.Defs
import proofs.«141588_j75806172774865_2_alg».proof.Proof.Gen.Kernel
import proofs.«141588_j75806172774865_2_alg».proof.Proof.Gen.Kernel.Skeleton
import proofs.«141588_j75806172774865_2_alg».proof.Proof.Gen.Kernel.Launch
import proofs.«141588_j75806172774865_2_alg».proof.Proof.Gen.Kernel.Points
import proofs.«141588_j75806172774865_2_alg».proof.Proof.Gen.Kernel.Frame
import proofs.«141588_j75806172774865_2_alg».proof.Proof.Gen.KernelIdeal
import proofs.«141588_j75806172774865_2_alg».proof.Proof.Gen.KernelIdeal.Skeleton
import proofs.«141588_j75806172774865_2_alg».proof.Proof.Gen.KernelIdeal.Launch
import proofs.«141588_j75806172774865_2_alg».proof.Proof.Gen.KernelIdeal.Points
import proofs.«141588_j75806172774865_2_alg».proof.Proof.Gen.KernelIdeal.Frame
import proofs.«141588_j75806172774865_2_alg».proof.Proof.Gen.ReferenceIdeal
import proofs.«141588_j75806172774865_2_alg».proof.Proof.Gen.Pre_finite_inputs
import proofs.«141588_j75806172774865_2_alg».proof.Proof.Gen.ReferenceIdeal.Run
import proofs.«141588_j75806172774865_2_alg».proof.Proof.Gen.ReferenceIdeal.Read
import proofs.«141588_j75806172774865_2_alg».proof.Proof.RefIsSpec
import proofs.«141588_j75806172774865_2_alg».proof.Proof.Final
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of those arguments: per batch
    the sum over the points of the squared signed distance. -/
theorem algebraic : Cert.algebraic_KernelIdeal_ReferenceIdeal := by
  intro m ρ m' ρ' _ hagree
  refine ⟨fun c => Cert.SdfSpec.G (Cert.KernelIdeal.Accumulate.argP m c) (Cert.KernelIdeal.Accumulate.argV m c)
    (Cert.KernelIdeal.Accumulate.argN m c) (Cert.KernelIdeal.Accumulate.argR m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact Cert.ReferenceIdeal.RefValue.ref_is_spec _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
